-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x48x48 : Shape := ⟨4, ![8, 256, 48, 48]⟩
abbrev S256 : Shape := ⟨1, ![256]⟩
abbrev S_ : Shape := ⟨0, ![]⟩

class Facts : Prop where
  bcast_S_S8x256x48x48 : S_.BroadcastsInDim S8x256x48x48 (![] : Fin 0 → Fin S8x256x48x48.rank)
  reducesTo_S8x256x48x48_S_d0_1_2_3 : S8x256x48x48.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_cst_24 : FVec F S_ .f32 := constant S_ .f32 0x00000000#32
  let main_v64 : FVec F S256 .f32 := broadcastInDim S256 ![] bcast_S_S256 main_cst_24
  let main_v65 : IVec S256 1 := cmpf .oge main_arg12 main_v64
  let main_c_25 : IVec S_ 1 := constantI S_ 1 1#1
  let main_v66 : IVec S_ 1 := (fun x v => Host.reduce IntOp.andi x v reducesTo_S256_S_d0 h_S_) main_v65 main_c_25
  let main_v67 : IVec S_ 1 := andi main_v63 main_v66
  main_v67

def fn_part2 {F : FTy → Type} [FloatOps F] (main_arg7 : FVec F S256 .f32) (main_arg8 : FVec F S256 .f32) (main_arg9 : FVec F S256 .f32) (main_arg10 : FVec F S256 .f32) (main_arg11 : FVec F S256 .f32) (main_arg12 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S256 .f32) (main_arg6 : FVec F S256 .f32) (main_arg7 : FVec F S256 .f32) (main_arg8 : FVec F S256 .f32) (main_arg9 : FVec F S256 .f32) (main_arg10 : FVec F S256 .f32) (main_arg11 : FVec F S256 .f32) (main_arg12 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8x256x48x48 .f32) (main_arg1 : FVec F S256 .f32) (main_arg2 : FVec F S256 .f32) (main_arg3 : FVec F S256 .f32) (main_arg4 : FVec F S256 .f32) (main_arg5 : FVec F S256 .f32) (main_arg6 : FVec F S256 .f32) (main_arg7 : FVec F S256 .f32) (main_arg8 : FVec F S256 .f32) (main_arg9 : FVec F S256 .f32) (main_arg10 : FVec F S256 .f32) (main_arg11 : FVec F S256 .f32) (main_arg12 : FVec F S256 .f32) : IVec S_ 1 :=
  let main_v0 : FVec F S8x256x48x48 .f32 := Host.absf main_arg0
  let main_cst : FVec F S_ .f32 := constant S_ .f32 0x7F800000#32
  let main_v1 : FVec F S8x256x48x48 .f32 := broadcastInDim S8x256x48x48 ![] bcast_S_S8x256x48x48 main_cst
  let main_v2 : IVec S8x256x48x48 1 := cmpf .olt main_v0 main_v1
  let main_c : IVec S_ 1 := constantI S_ 1 1#1
  let main_v3 : IVec S_ 1 := (fun x v => Host.reduce IntOp.andi x v reducesTo_S8x256x48x48_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_v13 main_v16
-- ==== Kernel.lean ====
abbrev S8x256x48x48 : Shape := ⟨4, ![8, 256, 48, 48]⟩
abbrev S256 : Shape := ⟨1, ![256]⟩
abbrev S8x256x2304 : Shape := ⟨3, ![8, 256, 2304]⟩
abbrev S_ : Shape := ⟨0, ![]⟩
abbrev S256x1 : Shape := ⟨2, ![256, 1]⟩
abbrev S256x8 : Shape := ⟨2, ![256, 8]⟩
abbrev S1x256x2304 : Shape := ⟨3, ![1, 256, 2304]⟩
abbrev S1x256x384 : Shape := ⟨3, ![1, 256, 384]⟩
abbrev S256x2304 : Shape := ⟨2, ![256, 2304]⟩
abbrev S256x384 : Shape := ⟨2, ![256, 384]⟩
abbrev S2304x384 : Shape := ⟨2, ![2304, 384]⟩
abbrev S384 : Shape := ⟨1, ![384]⟩
abbrev S1x384 : Shape := ⟨2, ![1, 384]⟩

abbrev nBuf : Space → Nat
  | .hbm => 35
  | .vmem => 8
  | .smem => 0
  | _ => 0

abbrev bufTy : (tb : Table) → Fin (tcTables nBuf tb) → BufTy
  | .hbm, ⟨0, _⟩ => ⟨S8x256x48x48, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S8x256x2304, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S256x1, .f32⟩
  | .hbm, ⟨25, _⟩ => ⟨S256x1, .f32⟩
  | .hbm, ⟨26, _⟩ => ⟨S256x1, .f32⟩
  | .hbm, ⟨27, _⟩ => ⟨S256x1, .f32⟩
  | .hbm, ⟨28, _⟩ => ⟨S256x1, .f32⟩
  | .hbm, ⟨29, _⟩ => ⟨S256x1, .f32⟩
  | .hbm, ⟨30, _⟩ => ⟨S256x1, .f32⟩
  | .hbm, ⟨31, _⟩ => ⟨S256x1, .f32⟩
  | .hbm, ⟨32, _⟩ => ⟨S256x8, .f32⟩
  | .hbm, ⟨33, _⟩ => ⟨S8x256x2304, .f32⟩
  | .hbm, ⟨34, _⟩ => ⟨S8x256x48x48, .f32⟩
  | .local _ .vmem, ⟨0, _⟩ => ⟨S1x256x2304, .f32⟩
  | .local _ .vmem, ⟨1, _⟩ => ⟨S1x256x2304, .f32⟩
  | .local _ .vmem, ⟨2, _⟩ => ⟨S256x8, .f32⟩
  | .local _ .vmem, ⟨3, _⟩ => ⟨S1x256x384, .f32⟩
  | .local _ .vmem, ⟨4, _⟩ => ⟨S1x256x384, .f32⟩
  | .local _ .vmem, ⟨5, _⟩ => ⟨S256x2304, .bf16⟩
  | .local _ .vmem, ⟨6, _⟩ => ⟨S256x2304, .bf16⟩
  | .local _ .vmem, ⟨7, _⟩ => ⟨S256x2304, .bf16⟩
  | _, _ => ⟨S8x256x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 6], ![false, false]⟩

def k0_mult1 (i : grid0.Coords) : BitVec 32 :=
  let arg1 : BitVec 32 := BitVec.ofNat 32 (i 1).val
  let c384_i32 : BitVec 32 := 384#32
  let v3 : BitVec 32 := Scalar.muli arg1 c384_i32
  v3
def k0_off1 (i : grid0.Coords) : Fin 2 → Nat :=
  let c0 : Index := 0#32
  let arg1 : BitVec 32 := BitVec.ofNat 32 (i 1).val
  let c384_i32 : BitVec 32 := 384#32
  let v3 : BitVec 32 := Scalar.muli arg1 c384_i32
  let v4 : BitVec 32 := v3
  let v5 : Index := Scalar.indexCast v4
  ![0, v5.toNat]
def k0_off2 (i : grid0.Coords) : Fin 3 → Nat :=
  let c0_11 : Index := 0#32
  let c0_12 : Index := 0#32
  let arg1 : BitVec 32 := BitVec.ofNat 32 (i 1).val
  let c384_i32 : BitVec 32 := 384#32
  let v3 : BitVec 32 := Scalar.muli arg1 c384_i32
  let v4 : BitVec 32 := v3
  let v31 : Index := Scalar.indexCast v4
  ![0, 0, v31.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x256x48x48_S8x256x2304 : S8x256x48x48.ShapeCasts S8x256x2304
  bcast_S_S256 : S_.BroadcastsInDim S256 (![] : Fin 0 → Fin S256.rank)
  bcast_S256_S256x1_0 : S256.BroadcastsInDim S256x1 (![0] : Fin 1 → Fin S256x1.rank)
  concatenates_S256x1_S256x1_S256x1_S256x1_S256x1_S256x1_S256x1_S256x1_S256x8_d1 : Shape.Concatenates [S256x1, S256x1, S256x1, S256x1, S256x1, S256x1, S256x1, S256x1] S256x8 1
  inb_S1x256x2304_S1x256x2304_0_0_0 : ∀ a, (![0, 0, 0] : Fin 3 → Nat) a + S1x256x2304.size a ≤ S1x256x2304.size a
  h_S1x256x2304 : 0 < S1x256x2304.numel
  shapeCasts_S1x256x2304_S256x2304 : S1x256x2304.ShapeCasts S256x2304
  inb_S256x8_S256x8_0_0 : ∀ a, (![0, 0] : Fin 2 → Nat) a + S256x8.size a ≤ S256x8.size a
  h_S256x8 : 0 < S256x8.numel
  shapeCasts_S256x8_S256x8 : S256x8.ShapeCasts S256x8
  slices_S256x8_o0_0_S256x1 : S256x8.Slices ![0, 0] S256x1
  slices_S256x8_o0_1_S256x1 : S256x8.Slices ![0, 1] S256x1
  slices_S256x8_o0_2_S256x1 : S256x8.Slices ![0, 2] S256x1
  slices_S256x8_o0_3_S256x1 : S256x8.Slices ![0, 3] S256x1
  slices_S256x8_o0_4_S256x1 : S256x8.Slices ![0, 4] S256x1
  slices_S256x8_o0_5_S256x1 : S256x8.Slices ![0, 5] S256x1
  broadcasts_S256x1_S256x2304 : S256x1.Broadcasts S256x2304
  bitsLt_bf16_f32 : FTy.bits .bf16 < FTy.bits .f32
  inb_S256x2304_S256x2304_0_0 : ∀ a, (![0, 0] : Fin 2 → Nat) a + S256x2304.size a ≤ S256x2304.size a
  h_S256x2304 : 0 < S256x2304.numel
  shapeCasts_S256x2304_S256x2304 : S256x2304.ShapeCasts S256x2304
  packedbf16_S256x2304_S256x2304_0_0 : (Rect.unit (s := S256x2304) ![0, 0] S256x2304.size inb_S256x2304_S256x2304_0_0).PackedRows (EltTy.packing .bf16)
  h_S256x384 : 0 < S256x384.numel
  reduces_S2304x384_S384 : S2304x384.Reduces [0] S384
  shapeCasts_S384_S1x384 : S384.ShapeCasts S1x384
  broadcasts_S1x384_S2304x384 : S1x384.Broadcasts S2304x384
  broadcasts_S1x384_S256x384 : S1x384.Broadcasts S256x384
  slices_S256x8_o0_6_S256x1 : S256x8.Slices ![0, 6] S256x1
  slices_S256x8_o0_7_S256x1 : S256x8.Slices ![0, 7] S256x1
  broadcasts_S256x1_S256x384 : S256x1.Broadcasts S256x384
  h_S1x256x384 : 0 < S1x256x384.numel
  shapeCasts_S1x256x384_S256x384 : S1x256x384.ShapeCasts S256x384
  inb_S1x256x384_S1x256x384_0_0_0 : ∀ a, (![0, 0, 0] : Fin 3 → Nat) a + S1x256x384.size a ≤ S1x256x384.size a
  shapeCasts_S256x384_S1x256x384 : S256x384.ShapeCasts S1x256x384
  shapeCasts_S8x256x2304_S8x256x48x48 : S8x256x2304.ShapeCasts S8x256x48x48
  dot_S256x2304_S256x384_S2304x384_0_0_1_1_n_n_wf : DotDims.WF S256x2304 S256x384 S2304x384 [0] [0] [1] [1] [] []
  dot_S256x2304_S2304x384_S256x384_1_0_0_1_n_n_wf : DotDims.WF S256x2304 S2304x384 S256x384 [1] [0] [0] [1] [] []
  hrank0 : 0 < grid0.rank
  k0_mult1_dvd : ∀ i : grid0.Coords, 384 ∣ (k0_mult1 i).toNat
  k0_off1_inb : ∀ i : grid0.Coords, ∀ a, (k0_off1 i) a + S256x384.size a ≤ S256x2304.size a
  k0_off2_inb : ∀ i : grid0.Coords, ∀ a, (k0_off2 i) a + S1x256x384.size a ≤ S1x256x2304.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2304.size a ≤ S8x256x2304.size a
  hwx0_0 : ∀ i : grid0.Coords, EltTy.bits .f32 = 32 ∨ (Rect.block (s := S8x256x2304) S1x256x2304.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x8.size a ≤ S256x8.size a
  hwx0_1 : ∀ i : grid0.Coords, EltTy.bits .f32 = 32 ∨ (Rect.block (s := S256x8) S256x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x384.size a ≤ S8x256x2304.size a
  hwx0_2 : ∀ i : grid0.Coords, EltTy.bits .f32 = 32 ∨ (Rect.block (s := S8x256x2304) S1x256x384.size (cc0_transform_2 i) (hinb0_2 i)).WholeWords (EltTy.packing .f32)

variable [Facts₀]

def dot_S256x2304_S256x384_S2304x384_0_0_1_1_n_n : DotDims S256x2304 S256x384 S2304x384 where
  lhsContracting := [0]
  rhsContracting := [0]
  lhsNonContracting := [1]
  rhsNonContracting := [1]
  lhsBatch := []
  rhsBatch := []
  wf := dot_S256x2304_S256x384_S2304x384_0_0_1_1_n_n_wf
def dot_S256x2304_S2304x384_S256x384_1_0_0_1_n_n : DotDims S256x2304 S2304x384 S256x384 where
  lhsContracting := [1]
  rhsContracting := [0]
  lhsNonContracting := [0]
  rhsNonContracting := [1]
  lhsBatch := []
  rhsBatch := []
  wf := dot_S256x2304_S2304x384_S256x384_1_0_0_1_n_n_wf

abbrev win0_0 : Pipeline.Window sig grid0 :=
  Pipeline.Window.ofSpec (Memref.whole main_v0) S1x256x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S256x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x256x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x48x48 : Shape := ⟨4, ![8, 256, 48, 48]⟩
abbrev S256 : Shape := ⟨1, ![256]⟩
abbrev S1x256x1x1 : Shape := ⟨4, ![1, 256, 1, 1]⟩
abbrev S8x256x2304 : Shape := ⟨3, ![8, 256, 2304]⟩
abbrev S8x2304x256 : Shape := ⟨3, ![8, 2304, 256]⟩
abbrev S8x2304x2304 : Shape := ⟨3, ![8, 2304, 2304]⟩
abbrev S_ : Shape := ⟨0, ![]⟩
abbrev S8x2304 : Shape := ⟨2, ![8, 2304]⟩
abbrev S8x2304x1 : Shape := ⟨3, ![8, 2304, 1]⟩

abbrev nBuf : Space → Nat
  | .hbm => 74
  | .vmem => 0
  | .smem => 0
  | _ => 0

abbrev bufTy : (tb : Table) → Fin (tcTables nBuf tb) → BufTy
  | .hbm, ⟨0, _⟩ => ⟨S8x256x48x48, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S1x256x1x1, .f32⟩
  | .hbm, ⟨14, _⟩ => ⟨S8x256x48x48, .f32⟩
  | .hbm, ⟨15, _⟩ => ⟨S8x256x48x48, .f32⟩
  | .hbm, ⟨16, _⟩ => ⟨S1x256x1x1, .f32⟩
  | .hbm, ⟨17, _⟩ => ⟨S8x256x48x48, .f32⟩
  | .hbm, ⟨18, _⟩ => ⟨S8x256x48x48, .f32⟩
  | .hbm, ⟨19, _⟩ => ⟨S8x256x2304, .f32⟩
  | .hbm, ⟨20, _⟩ => ⟨S8x2304x256, .f32⟩
  | .hbm, ⟨21, _⟩ => ⟨S1x256x1x1, .f32⟩
  | .hbm, ⟨22, _⟩ => ⟨S8x256x48x48, .f32⟩
  | .hbm, ⟨23, _⟩ => ⟨S8x256x48x48, .f32⟩
  | .hbm, ⟨24, _⟩ => ⟨S1x256x1x1, .f32⟩
  | .hbm, ⟨25, _⟩ => ⟨S8x256x48x48, .f32⟩
  | .hbm, ⟨26, _⟩ => ⟨S8x256x48x48, .f32⟩
  | .hbm, ⟨27, _⟩ => ⟨S8x256x2304, .f32⟩
  | .hbm, ⟨28, _⟩ => ⟨S8x2304x256, .f32⟩
  | .hbm, ⟨29, _⟩ => ⟨S1x256x1x1, .f32⟩
  | .hbm, ⟨30, _⟩ => ⟨S8x256x48x48, .f32⟩
  | .hbm, ⟨31, _⟩ => ⟨S8x256x48x48, .f32⟩
  | .hbm, ⟨32, _⟩ => ⟨S1x256x1x1, .f32⟩
  | .hbm, ⟨33, _⟩ => ⟨S8x256x48x48, .f32⟩
  | .hbm, ⟨34, _⟩ => ⟨S8x256x48x48, .f32⟩
  | .hbm, ⟨35, _⟩ => ⟨S8x256x2304, .f32⟩
  | .hbm, ⟨36, _⟩ => ⟨S8x2304x2304, .f32⟩
  | .hbm, ⟨37, _⟩ => ⟨S_, .f32⟩
  | .hbm, ⟨38, _⟩ => ⟨S8x2304, .f32⟩
  | .hbm, ⟨39, _⟩ => ⟨S_, .f32⟩
  | .hbm, ⟨40, _⟩ => ⟨S8x2304, .f32⟩
  | .hbm, ⟨41, _⟩ => ⟨S8x2304, .f32⟩
  | .hbm, ⟨42, _⟩ => ⟨S8x2304x1, .f32⟩
  | .hbm, ⟨43, _⟩ => ⟨S8x2304x2304, .f32⟩
  | .hbm, ⟨44, _⟩ => ⟨S8x2304x2304, .f32⟩
  | .hbm, ⟨45, _⟩ => ⟨S8x2304x2304, .f32⟩
  | .hbm, ⟨46, _⟩ => ⟨S_, .f32⟩
  | .hbm, ⟨47, _⟩ => ⟨S8x2304, .f32⟩
  | .hbm, ⟨48, _⟩ => ⟨S8x2304x1, .f32⟩
  | .hbm, ⟨49, _⟩ => ⟨S8x2304x2304, .f32⟩
  | .hbm, ⟨50, _⟩ => ⟨S8x2304x2304, .f32⟩
  | .hbm, ⟨51, _⟩ => ⟨S8x2304x256, .f32⟩
  | .hbm, ⟨52, _⟩ => ⟨S8x256x2304, .f32⟩
  | .hbm, ⟨53, _⟩ => ⟨S8x256x48x48, .f32⟩
  | .hbm, ⟨54, _⟩ => ⟨S1x256x1x1, .f32⟩
  | .hbm, ⟨55, _⟩ => ⟨S8x256x48x48, .f32⟩
  | .hbm, ⟨56, _⟩ => ⟨S8x256x48x48, .f32⟩
  | .hbm, ⟨57, _⟩ => ⟨S1x256x1x1, .f32⟩
  | .hbm, ⟨58, _⟩ => ⟨S8x256x48x48, .f32⟩
  | .hbm, ⟨59, _⟩ => ⟨S8x256x48x48, .f32⟩
  | .hbm, ⟨60, _⟩ => ⟨S_, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S256, .f32⟩
  | .hbm, ⟨65, _⟩ => ⟨S1x256x1x1, .f32⟩
  | .hbm, ⟨66, _⟩ => ⟨S8x256x48x48, .f32⟩
  | .hbm, ⟨67, _⟩ => ⟨S8x256x48x48, .f32⟩
  | .hbm, ⟨68, _⟩ => ⟨S256, .f32⟩
  | .hbm, ⟨69, _⟩ => ⟨S256, .f32⟩
  | .hbm, ⟨70, _⟩ => ⟨S1x256x1x1, .f32⟩
  | .hbm, ⟨71, _⟩ => ⟨S8x256x48x48, .f32⟩
  | .hbm, ⟨72, _⟩ => ⟨S8x256x48x48, .f32⟩
  | .hbm, ⟨73, _⟩ => ⟨S8x256x48x48, .f32⟩
  | _, _ => ⟨S8x256x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_1 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_2 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]

class Facts₀ : Prop where
  bcast_S256_S1x256x1x1_1 : S256.BroadcastsInDim S1x256x1x1 (![1] : Fin 1 → Fin S1x256x1x1.rank)
  bcast_S1x256x1x1_S8x256x48x48_0_1_2_3 : S1x256x1x1.BroadcastsInDim S8x256x48x48 (![0, 1, 2, 3] : Fin 4 → Fin S8x256x48x48.rank)
  shapeCasts_S8x256x48x48_S8x256x2304 : S8x256x48x48.ShapeCasts S8x256x2304
  transposes_S8x256x2304_S8x2304x256_0_2_1 : S8x256x2304.Transposes [0, 2, 1] S8x2304x256
  reducesTo_S8x2304x2304_S8x2304_d2 : S8x2304x2304.ReducesTo [2] S8x2304
  h_S_ : 0 < S_.numel
  bcast_S_S8x2304 : S_.BroadcastsInDim S8x2304 (![] : Fin 0 → Fin S8x2304.rank)
  bcast_S8x2304_S8x2304x1_0_1 : S8x2304.BroadcastsInDim S8x2304x1 (![0, 1] : Fin 2 → Fin S8x2304x1.rank)
  bcast_S8x2304x1_S8x2304x2304_0_1_2 : S8x2304x1.BroadcastsInDim S8x2304x2304 (![0, 1, 2] : Fin 3 → Fin S8x2304x2304.rank)
  transposes_S8x2304x256_S8x256x2304_0_2_1 : S8x2304x256.Transposes [0, 2, 1] S8x256x2304
  shapeCasts_S8x256x2304_S8x256x48x48 : S8x256x2304.ShapeCasts S8x256x48x48
  bcast_S_S256 : S_.BroadcastsInDim S256 (![] : Fin 0 → Fin S256.rank)
  dot_S8x2304x256_S8x256x2304_S8x2304x2304_2_1_1_2_0_0_wf : DotDims.WF S8x2304x256 S8x256x2304 S8x2304x2304 [2] [1] [1] [2] [0] [0]
  dot_S8x2304x2304_S8x2304x256_S8x2304x256_2_1_1_2_0_0_wf : DotDims.WF S8x2304x2304 S8x2304x256 S8x2304x256 [2] [1] [1] [2] [0] [0]

variable [Facts₀]

def dot_S8x2304x256_S8x256x2304_S8x2304x2304_2_1_1_2_0_0 : DotDims S8x2304x256 S8x256x2304 S8x2304x2304 where
  lhsContracting := [2]
  rhsContracting := [1]
  lhsNonContracting := [1]
  rhsNonContracting := [2]
  lhsBatch := [0]
  rhsBatch := [0]
  wf := dot_S8x2304x256_S8x256x2304_S8x2304x2304_2_1_1_2_0_0_wf
def dot_S8x2304x2304_S8x2304x256_S8x2304x256_2_1_1_2_0_0 : DotDims S8x2304x2304 S8x2304x256 S8x2304x256 where
  lhsContracting := [2]
  rhsContracting := [1]
  lhsNonContracting := [1]
  rhsNonContracting := [2]
  lhsBatch := [0]
  rhsBatch := [0]
  wf := dot_S8x2304x2304_S8x2304x256_S8x2304x256_2_1_1_2_0_0_wf

class Facts : Prop extends Facts₀ where

variable [Facts]
-- ==== Proof.KernelAround.lean ====
/-
  The program around its one region, for any float instance.

  The host lines before the region compute the folded batch-norm scale and offset from the per-channel vectors
  and pack eight per-channel columns into one [256,8] array; the region runs over the grid of 8 batches by 6
  query tiles; one host line after it reshapes the result. Here: the memory as the region finds it, that the
  program is these three stretches in order, that no host line writes an argument array, each window's block
  at a grid point read off the array the region finds, the branch of the kernel body (taken exactly at the
  first query tile of a batch), and the scratch buffers as the region's invariant hands them over.
-/
import proofs.«110668_j27084063769111_2_alg».proof.Proof.Gen.Kernel.Launch
import proofs.«110668_j27084063769111_2_alg».proof.Proof.Gen.Kernel.Skeleton
import proofs.«110668_j27084063769111_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the region finds, and the program as three stretches -/

/-- Core `c`'s buffers when the region is entered: the launch memory after the host lines before the region. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the region, the region, the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches only the region's arrays and buffers the region leaves alone. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result buffer, which is none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## No host line writes an argument array -/

/-- The region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 0 ends as launched: the line after the region does not write it, and it is no array of the region. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- The region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 1 ends as launched: the line after the region does not write it, and it is no array of the region. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- The region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 2 ends as launched: the line after the region does not write it, and it is no array of the region. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- The region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 3 ends as launched: the line after the region does not write it, and it is no array of the region. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- The region finds argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 4 ends as launched: the line after the region does not write it, and it is no array of the region. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- The region finds argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 5 ends as launched: the line after the region does not write it, and it is no array of the region. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- The region finds argument 6 as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 6 ends as launched: the line after the region does not write it, and it is no array of the region. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- The region finds argument 7 as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 7 ends as launched: the line after the region does not write it, and it is no array of the region. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- The region finds argument 8 as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 8 ends as launched: the line after the region does not write it, and it is no array of the region. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-- The region finds argument 9 as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 9 ends as launched: the line after the region does not write it, and it is no array of the region. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c

/-- The region finds argument 10 as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 10 ends as launched: the line after the region does not write it, and it is no array of the region. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg10 (by exact (by decide : ∀ w, Pipeline.arrRef spec0 w ≠ main_arg10))]
  exact V_main_arg10 m c

/-- The region finds argument 11 as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 11 ends as launched: the line after the region does not write it, and it is no array of the region. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg11 (by exact (by decide : ∀ w, Pipeline.arrRef spec0 w ≠ main_arg11))]
  exact V_main_arg11 m c

/-- The region finds argument 12 as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 12 ends as launched: the line after the region does not write it, and it is no array of the region. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg12 (by exact (by decide : ∀ w, Pipeline.arrRef spec0 w ≠ main_arg12))]
  exact V_main_arg12 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The batch's input block sits in window 0's current staging buffer at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The packed per-channel columns sit in window 1's staging buffer at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- From a run that ends with every buffer outside the region's arrays as the host line after the region leaves
    it, the thirteen argument arrays end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c)⟩) h

/-! ## The body's branch -/

/-- The condition of the body's one conditional: the query-tile coordinate is zero. -/
abbrev cond0_0 (i : grid0.Coords) : Prop := (Scalar.cmpi .ne (Scalar.extui (Scalar.cmpi .eq (BitVec.ofNat 32 (i 1).val) 0#32)) 0#32) = 1#1
/-- It holds exactly at the first of each batch's six points. -/
theorem hcond0_0 : ∀ t : Fin cfg0.N, cond0_0 (grid0.coords t) ↔ t.val % 6 = 0 :=
  (by decide +kernel : ∀ t : Fin grid0.N, cond0_0 (grid0.coords t) ↔ t.val % 6 = 0)

/-- Between two consecutive points of one batch the input window's block index does not move. -/
theorem index0_0_prev : ∀ t : Fin cfg0.N, t.val % 6 ≠ 0 →
    (cfg0.win 0).index ⟨t.val - 1, Nat.lt_of_le_of_lt (Nat.sub_le _ _) t.isLt⟩ = (cfg0.win 0).index t :=
  (by decide +kernel : ∀ t : Fin grid0.N, t.val % 6 ≠ 0 →
    win0_0.index ⟨t.val - 1, Nat.lt_of_le_of_lt (Nat.sub_le _ _) t.isLt⟩ = win0_0.index t)
/-- The packed columns' block index never moves. -/
theorem index0_1_prev : ∀ t : Fin cfg0.N,
    (cfg0.win 1).index ⟨t.val - 1, Nat.lt_of_le_of_lt (Nat.sub_le _ _) t.isLt⟩ = (cfg0.win 1).index t :=
  (by decide +kernel : ∀ t : Fin grid0.N,
    win0_1.index ⟨t.val - 1, Nat.lt_of_le_of_lt (Nat.sub_le _ _) t.isLt⟩ = win0_1.index t)

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-! ## The memrefs the body is called with -/

/-- One staging buffer of the output window, through which its contents are stated. -/
abbrev VO0_2 : View sig .tc .vmem S1x256x384 .f32 := (Memref.whole cc0_stg2_0 : Memref sig .tc .vmem S1x256x384 .f32).view
abbrev ms0_0 (t : Fin cfg0.N) : Memref sig .tc .vmem S1x256x2304 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x384 .f32 := win0_2.stage (cfg0.slots t 2)
abbrev hs0_2 (t : Fin cfg0.N) : (ms0_2 t).IsWhole := hstage0_2 ((cfg0.slots t 2).cast nbuf0_2)
/-- The three scratch buffers: the query, key and value projections of the current batch. -/
abbrev scM0_0 : Memref sig .tc .vmem S256x2304 .bf16 := Memref.whole cc0_scratch0
abbrev scM0_1 : Memref sig .tc .vmem S256x2304 .bf16 := Memref.whole cc0_scratch1
abbrev scM0_2 : Memref sig .tc .vmem S256x2304 .bf16 := Memref.whole cc0_scratch2

/-- The region's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.KernelFirstTile.lean ====
/-
  The kernel body at the first query tile of a batch.

  There the body first fills the three scratch buffers from the batch's input block and the packed per-channel
  columns (the value, query and key projections, each the input scaled and shifted per channel), then computes
  the tile as at every other point. On whole buffers, the two inputs at their contents and the scratch and the
  output buffer at anything, it runs to the end, leaves the inputs as they were and each of the four other
  buffers with a list of stored pieces, which the run finds.
-/
import proofs.«110668_j27084063769111_2_alg».proof.Proof.KernelAround

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output buffer and in the three scratch buffers at a first tile,
    with the body's triple on whole buffers. -/
noncomputable def kernelRun0_A (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i)
    (x0 : Vec F S1x256x2304 .f32) (x1 : Vec F S256x8 .f32) :
    Σ' (L2 : List (View.Piece (Elt F) S1x256x384 .f32)) (LS0 : List (View.Piece (Elt F) S256x2304 .bf16)) (LS1 : List (View.Piece (Elt F) S256x2304 .bf16)), { LS2 : List (View.Piece (Elt F) S256x2304 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc0__nonlocal_kernel i arg2 harg2 arg3 harg3 arg4 harg4 arg5 harg5 arg6 harg6 arg7 harg7) K } := by
  refine ⟨?_, ?_, ?_, ?_, fun E K => ?run⟩
  case run =>
    simp only [cc0__nonlocal_kernel_eq_skeleton]; unfold cc0__nonlocal_kernel_skel
    simp only [k0_part1_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.Kernel.Hand

end
-- ==== Proof.KernelLaterTile.lean ====
/-
  The kernel body at a later query tile of a batch.

  There the body only reads the three scratch buffers, which hold the batch's projections from the first tile.
  On whole buffers, the two inputs and the three scratch buffers at their contents and the output buffer at
  anything, it runs to the end, leaves the inputs and the scratch as they were and the output buffer with a
  list of stored pieces, which the run finds.
-/
import proofs.«110668_j27084063769111_2_alg».proof.Proof.KernelFirstTile

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output buffer at a later tile, with the body's triple. -/
noncomputable def kernelRun0_B (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : ¬cond0_0 i)
    (x0 : Vec F S1x256x2304 .f32) (x1 : Vec F S256x8 .f32) (xs0 xs1 xs2 : Vec F S256x2304 .bf16) :
    { L2 : List (View.Piece (Elt F) S1x256x384 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ owns (c : Thread nD τ) arg5 fullShare xs0 ∗ owns (c : Thread nD τ) arg6 fullShare xs1 ∗ owns (c : Thread nD τ) arg7 fullShare xs2) -∗ K ⟨⟩))
          ⊢ wp frame (wpE (defs₀ (F := F)) Variants.none c none) E (cc0__nonlocal_kernel i arg2 harg2 arg3 harg3 arg4 harg4 arg5 harg5 arg6 harg6 arg7 harg7) K } := by
  refine ⟨?_, fun E K => ?run⟩
  case run =>
    simp only [cc0__nonlocal_kernel_eq_skeleton]; unfold cc0__nonlocal_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]
    · iexists _; isplitr; · ipureintro; exact harg5.read_unread _
      iexact HS0
    isplitl [HS1]
    · iexists _; isplitr; · ipureintro; exact harg6.read_unread _
      iexact HS1
    iexists _; isplitr; · ipureintro; exact harg7.read_unread _
    iexact HS2

end Cert.Kernel.Hand

end
-- ==== Proof.KernelPieces.lean ====
/-
  What the body leaves in the output buffer and in the scratch buffers, read back.

  Each list of stored pieces the two runs find covers its buffer (every list is one store of the whole buffer),
  so the buffer's contents after the body are the pieces read back, whatever it held before.
-/
import proofs.«110668_j27084063769111_2_alg».proof.Proof.KernelLaterTile

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers as views: what they hold is stated through these. -/
abbrev VS0_0 : View sig .tc .vmem S256x2304 .bf16 := scM0_0.view
abbrev VS0_1 : View sig .tc .vmem S256x2304 .bf16 := scM0_1.view
abbrev VS0_2 : View sig .tc .vmem S256x2304 .bf16 := scM0_2.view

/-! ## The first tile of a batch -/

theorem cover0_A_2 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) (y : S1x256x384.Idx) :
    ∃ pc ∈ (kernelRun0_A c i arg2 harg2 arg3 harg3 arg4 harg4 arg5 harg5 arg6 harg6 arg7 harg7 hc0 x0 x1).1, y ∈ pc.1.set :=
  View.cover_of_tiledL (kernelRun0_A c i arg2 harg2 arg3 harg3 arg4 harg4 arg5 harg5 arg6 harg6 arg7 harg7 hc0 x0 x1).1 S1x256x384.size (by sl_kernel_rfl) y
/-- The output tile the first-tile body leaves. -/
def out0_A_2 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) : Vec F S1x256x384 .f32 :=
  VO0_2.read (Elt F) (VO0_2.writes (Elt F) VO0_2.junk (kernelRun0_A c i arg2 harg2 arg3 harg3 arg4 harg4 arg5 harg5 arg6 harg6 arg7 harg7 hc0 x0 x1).1)

theorem scover0_A_0 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) (y : S256x2304.Idx) :
    ∃ pc ∈ (kernelRun0_A c i arg2 harg2 arg3 harg3 arg4 harg4 arg5 harg5 arg6 harg6 arg7 harg7 hc0 x0 x1).2.1, y ∈ pc.1.set :=
  View.cover_of_tiledL (kernelRun0_A c i arg2 harg2 arg3 harg3 arg4 harg4 arg5 harg5 arg6 harg6 arg7 harg7 hc0 x0 x1).2.1 S256x2304.size (by sl_kernel_rfl) y
/-- What the first-tile body leaves in the first scratch buffer (the query projection). -/
def sout0_A_0 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) : Vec F S256x2304 .bf16 :=
  VS0_0.read (Elt F) (VS0_0.writes (Elt F) VS0_0.junk (kernelRun0_A c i arg2 harg2 arg3 harg3 arg4 harg4 arg5 harg5 arg6 harg6 arg7 harg7 hc0 x0 x1).2.1)

theorem scover0_A_1 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) (y : S256x2304.Idx) :
    ∃ pc ∈ (kernelRun0_A c i arg2 harg2 arg3 harg3 arg4 harg4 arg5 harg5 arg6 harg6 arg7 harg7 hc0 x0 x1).2.2.1, y ∈ pc.1.set :=
  View.cover_of_tiledL (kernelRun0_A c i arg2 harg2 arg3 harg3 arg4 harg4 arg5 harg5 arg6 harg6 arg7 harg7 hc0 x0 x1).2.2.1 S256x2304.size (by sl_kernel_rfl) y
/-- What it leaves in the second (the key projection). -/
def sout0_A_1 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) : Vec F S256x2304 .bf16 :=
  VS0_1.read (Elt F) (VS0_1.writes (Elt F) VS0_1.junk (kernelRun0_A c i arg2 harg2 arg3 harg3 arg4 harg4 arg5 harg5 arg6 harg6 arg7 harg7 hc0 x0 x1).2.2.1)

theorem scover0_A_2 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) (y : S256x2304.Idx) :
    ∃ pc ∈ (kernelRun0_A c i arg2 harg2 arg3 harg3 arg4 harg4 arg5 harg5 arg6 harg6 arg7 harg7 hc0 x0 x1).2.2.2.1, y ∈ pc.1.set :=
  View.cover_of_tiledL (kernelRun0_A c i arg2 harg2 arg3 harg3 arg4 harg4 arg5 harg5 arg6 harg6 arg7 harg7 hc0 x0 x1).2.2.2.1 S256x2304.size (by sl_kernel_rfl) y
/-- What it leaves in the third (the value projection). -/
def sout0_A_2 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) : Vec F S256x2304 .bf16 :=
  VS0_2.read (Elt F) (VS0_2.writes (Elt F) VS0_2.junk (kernelRun0_A c i arg2 harg2 arg3 harg3 arg4 harg4 arg5 harg5 arg6 harg6 arg7 harg7 hc0 x0 x1).2.2.2.1)

/-! ## A later tile -/

theorem cover0_B_2 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : ¬cond0_0 i) (x0 : Vec F S1x256x2304 .f32) (x1 : Vec F S256x8 .f32) (xs0 xs1 xs2 : Vec F S256x2304 .bf16) (y : S1x256x384.Idx) :
    ∃ pc ∈ (kernelRun0_B c i arg2 harg2 arg3 harg3 arg4 harg4 arg5 harg5 arg6 harg6 arg7 harg7 hc0 x0 x1 xs0 xs1 xs2).1, y ∈ pc.1.set :=
  View.cover_of_tiledL (kernelRun0_B c i arg2 harg2 arg3 harg3 arg4 harg4 arg5 harg5 arg6 harg6 arg7 harg7 hc0 x0 x1 xs0 xs1 xs2).1 S1x256x384.size (by sl_kernel_rfl) y
/-- The output tile a later-tile body leaves. -/
def out0_B_2 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : ¬cond0_0 i) (x0 : Vec F S1x256x2304 .f32) (x1 : Vec F S256x8 .f32) (xs0 xs1 xs2 : Vec F S256x2304 .bf16) : Vec F S1x256x384 .f32 :=
  VO0_2.read (Elt F) (VO0_2.writes (Elt F) VO0_2.junk (kernelRun0_B c i arg2 harg2 arg3 harg3 arg4 harg4 arg5 harg5 arg6 harg6 arg7 harg7 hc0 x0 x1 xs0 xs1 xs2).1)

end Cert.Kernel.Hand

end
-- ==== Proof.LibWholeStore.lean ====
/-
  A store of a whole buffer read back.

  A store through the rectangle that starts at offset zero on every axis and has the buffer's own extents
  overwrites every element. So when such a store is the most recent one, reading the buffer back gives exactly
  the stored payload, whatever was stored earlier and whatever the buffer held at first; and a load through the
  same rectangle of contents `X` reads `X`.
-/
import Idealize.ShloMosaic.Lib.Pipeline.Value

noncomputable section

namespace Idealize.ShloMosaic.View

variable {Val : EltTy → Type} [∀ e, Nonempty (Val e)] {S : Shape} {e : EltTy}
variable {sig : RefSig} {κ : Kind} {sp : Space}

/-- The newest store covers the whole shape: the buffer reads back as that store's payload. -/
theorem read_writes_whole_last (v : View sig κ sp S e) (f : v.ty.Contents Val) {off : Fin S.rank → Nat}
    (hz : off = fun _ => 0) (inb : ∀ a, off a + S.size a ≤ S.size a) (w : S.Idx → Val e) (L : List (Piece Val S e)) :
    v.read Val (v.writes Val f ((⟨Rect.unit off S.size inb, w⟩ : Piece Val S e) :: L)) = w := by
  rw [View.read_writes_eq_canon v f _ (fun y => ⟨_, List.mem_cons.mpr (Or.inl rfl), View.mem_set_unit_zero hz inb y⟩),
    View.canon_cons_unit_zero hz]

/-- A load through the whole-shape rectangle of a whole buffer reads its contents. -/
theorem readAt_whole {m : Memref sig κ sp S e} (h : m.IsWhole) {off : Fin S.rank → Nat}
    (hz : off = fun _ => 0) (inb : ∀ a, off a + S.size a ≤ S.size a) (X : S.Idx → Val e) :
    m.view.readAt Val (Rect.unit off S.size inb).toLoadRect (h.unread X) = X := by
  rw [View.readAt_eq_ld, h.read_unread, View.ld_unit_zero hz]

end Idealize.ShloMosaic.View

end
-- ==== Proof.KernelPayloads.lean ====
/-
  The contents the body leaves, named.

  At the first tile of a batch the three scratch buffers end at the per-channel projections of the batch's input
  block (the stores' values, as functions of the two input buffers' contents). At every tile the output buffer
  ends at one formula of: the input block, the packed columns, and the three projections — at the first tile the
  ones just stored, at a later tile the ones the scratch buffers still hold. The query slab and the input's own
  tile are the columns 384·q … 384·q + 383 of their arrays, q the tile's coordinate.
-/
import proofs.«110668_j27084063769111_2_alg».proof.Proof.KernelPieces
import proofs.«110668_j27084063769111_2_alg».proof.Proof.LibWholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero2 : (![0, 0] : Fin 2 → Nat) = fun _ => 0 := by funext a; fin_cases a <;> rfl
theorem zero3 : (![0, 0, 0] : Fin 3 → Nat) = fun _ => 0 := by funext a; fin_cases a <;> rfl

/-- The query slab of tile `i`: columns 384·q … of a [256,2304] array. -/
def slab (i : grid0.Coords) (xs0 : Vec F S256x2304 .bf16) : Vec F S256x384 .bf16 :=
  View.ld xs0 (Rect.unit (s := S256x2304) (k0_off1 i) S256x384.size (k0_off1_inb i))
/-- The input block's own tile: the same columns of the [1,256,2304] block. -/
def ownTile (i : grid0.Coords) (x0 : Vec F S1x256x2304 .f32) : Vec F S1x256x384 .f32 :=
  View.ld x0 (Rect.unit (s := S1x256x2304) (k0_off2 i) S1x256x384.size (k0_off2_inb i))
/-- The output tile as one formula of the input block, the packed columns and the three projections. -/
def tileOf (i : grid0.Coords) (x0 : Vec F S1x256x2304 .f32) (x1 : Vec F S256x8 .f32) (xs0 xs1 xs2 : Vec F S256x2304 .bf16) : Vec F S1x256x384 .f32 :=
  k0_pay1 (k0_pay7 (slab i xs0) xs1 xs2 x1 (ownTile i x0))

theorem sout0_A_0_eq (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) :
    sout0_A_0 c i arg2 harg2 arg3 harg3 arg4 harg4 arg5 harg5 arg6 harg6 arg7 harg7 hc0 x0 x1 = k0_pay5 x0 x1 := by
  unfold sout0_A_0
  rw [View.read_writes_eq_canon _ _ _ (scover0_A_0 c i arg2 harg2 arg3 harg3 arg4 harg4 arg5 harg5 arg6 harg6 arg7 harg7 hc0 x0 x1)]
  unfold kernelRun0_A; dsimp only
  sl_unfold_words
  rw [View.canon_unit_zero (S := S256x2304) zero2]
  simp only [View.readAt_eq_ld, harg2.read_unread, harg3.read_unread, View.ld_unit_zero (S := S1x256x2304) zero3, View.ld_unit_zero (S := S256x8) zero2]

theorem sout0_A_1_eq (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) :
    sout0_A_1 c i arg2 harg2 arg3 harg3 arg4 harg4 arg5 harg5 arg6 harg6 arg7 harg7 hc0 x0 x1 = k0_pay6 x0 x1 := by
  unfold sout0_A_1
  rw [View.read_writes_eq_canon _ _ _ (scover0_A_1 c i arg2 harg2 arg3 harg3 arg4 harg4 arg5 harg5 arg6 harg6 arg7 harg7 hc0 x0 x1)]
  unfold kernelRun0_A; dsimp only
  sl_unfold_words
  rw [View.canon_unit_zero (S := S256x2304) zero2]
  simp only [View.readAt_eq_ld, harg2.read_unread, harg3.read_unread, View.ld_unit_zero (S := S1x256x2304) zero3, View.ld_unit_zero (S := S256x8) zero2]

theorem sout0_A_2_eq (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) :
    sout0_A_2 c i arg2 harg2 arg3 harg3 arg4 harg4 arg5 harg5 arg6 harg6 arg7 harg7 hc0 x0 x1 = k0_pay4 x0 x1 := by
  unfold sout0_A_2
  rw [View.read_writes_eq_canon _ _ _ (scover0_A_2 c i arg2 harg2 arg3 harg3 arg4 harg4 arg5 harg5 arg6 harg6 arg7 harg7 hc0 x0 x1)]
  unfold kernelRun0_A; dsimp only
  sl_unfold_words
  rw [View.canon_unit_zero (S := S256x2304) zero2]
  simp only [View.readAt_eq_ld, harg2.read_unread, harg3.read_unread, View.ld_unit_zero (S := S1x256x2304) zero3, View.ld_unit_zero (S := S256x8) zero2]

theorem out0_A_2_eq (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) :
    out0_A_2 c i arg2 harg2 arg3 harg3 arg4 harg4 arg5 harg5 arg6 harg6 arg7 harg7 hc0 x0 x1 = tileOf i x0 x1 (k0_pay5 x0 x1) (k0_pay6 x0 x1) (k0_pay4 x0 x1) := by
  unfold out0_A_2
  rw [View.read_writes_eq_canon _ _ _ (cover0_A_2 c i arg2 harg2 arg3 harg3 arg4 harg4 arg5 harg5 arg6 harg6 arg7 harg7 hc0 x0 x1)]
  unfold kernelRun0_A; dsimp only
  sl_unfold_words
  rw [View.canon_unit_zero (S := S1x256x384) zero3]
  simp only [View.readAt_eq_ld, harg2.read_unread, harg3.read_unread, View.ld_unit_zero (S := S1x256x2304) zero3, View.ld_unit_zero (S := S256x8) zero2]
  rw [View.read_writes_whole_last (S := S256x2304) arg5.view _ zero2, View.readCov_unit_zero (S := S256x2304) arg6.view zero2,
    View.readCov_unit_zero (S := S256x2304) arg7.view zero2]
  rfl

theorem out0_B_2_eq (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : ¬cond0_0 i) (x0 : Vec F S1x256x2304 .f32) (x1 : Vec F S256x8 .f32) (xs0 xs1 xs2 : Vec F S256x2304 .bf16) :
    out0_B_2 c i arg2 harg2 arg3 harg3 arg4 harg4 arg5 harg5 arg6 harg6 arg7 harg7 hc0 x0 x1 xs0 xs1 xs2 = tileOf i x0 x1 xs0 xs1 xs2 := by
  unfold out0_B_2
  rw [View.read_writes_eq_canon _ _ _ (cover0_B_2 c i arg2 harg2 arg3 harg3 arg4 harg4 arg5 harg5 arg6 harg6 arg7 harg7 hc0 x0 x1 xs0 xs1 xs2)]
  unfold kernelRun0_B; dsimp only
  sl_unfold_words
  rw [View.canon_unit_zero (S := S1x256x384) zero3]
  simp only [View.readAt_eq_ld, harg2.read_unread, harg3.read_unread, harg5.read_unread, harg6.read_unread, harg7.read_unread, View.ld_unit_zero (S := S256x2304) zero2, View.ld_unit_zero (S := S256x8) zero2]
  rfl

end Cert.Kernel.Hand

end
-- ==== Proof.KernelRun.lean ====
/-
  The region's run, point by point, and the frame.

  After the body at grid point `t` the three scratch buffers hold the per-channel projections of the batch's
  input block — stored at the batch's first tile and only read at its later tiles, where the input window's block
  is still the same block — and the output buffer holds the tile formula of the point's blocks. With this as the
  region's proof data the body meets its obligation at every point, the region runs, and with the host lines
  around it the whole program runs to the end with its argument arrays unchanged.
-/
import proofs.«110668_j27084063769111_2_alg».proof.Proof.KernelPayloads

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- Before point `n`: at the region's entry the scratch buffers at anything; afterwards at the projections of the
    blocks of the point before. -/
def PhiS (c : Dev nD) : (n : ℕ) → n ≤ cfg0.N → sProp 𝕄
  | 0, _ => Pipeline.ΦA spec0 c
  | n + 1, hn => iprop(iprop(owns (c : Thread nD τ) scM0_0 fullShare (k0_pay5 (iblk m c 0 ⟨n, hn⟩) (iblk m c 1 ⟨n, hn⟩))
      ∗ owns (c : Thread nD τ) scM0_1 fullShare (k0_pay6 (iblk m c 0 ⟨n, hn⟩) (iblk m c 1 ⟨n, hn⟩))
      ∗ owns (c : Thread nD τ) scM0_2 fullShare (k0_pay4 (iblk m c 0 ⟨n, hn⟩) (iblk m c 1 ⟨n, hn⟩))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (k0_pay5 (iblk m c 0 ⟨n, hn⟩) (iblk m c 1 ⟨n, hn⟩))
      ∗ owns (c : Thread nD τ) scM0_1 fullShare (k0_pay6 (iblk m c 0 ⟨n, hn⟩) (iblk m c 1 ⟨n, hn⟩))
      ∗ owns (c : Thread nD τ) scM0_2 fullShare (k0_pay4 (iblk m c 0 ⟨n, hn⟩) (iblk m c 1 ⟨n, hn⟩))) ∗ (∃ r, prngReg c r)) := rfl

theorem PhiS_pos (c : Dev nD) (n : ℕ) (h : n ≤ cfg0.N) (hz : n ≠ 0) :
    PhiS m c n h = iprop(iprop(owns (c : Thread nD τ) scM0_0 fullShare (k0_pay5 (iblk m c 0 ⟨n - 1, by omega⟩) (iblk m c 1 ⟨n - 1, by omega⟩))
      ∗ owns (c : Thread nD τ) scM0_1 fullShare (k0_pay6 (iblk m c 0 ⟨n - 1, by omega⟩) (iblk m c 1 ⟨n - 1, by omega⟩))
      ∗ owns (c : Thread nD τ) scM0_2 fullShare (k0_pay4 (iblk m c 0 ⟨n - 1, by omega⟩) (iblk m c 1 ⟨n - 1, by omega⟩))) ∗ (∃ r, prngReg c r)) := by
  cases n with
  | zero => exact absurd rfl hz
  | succ n => rfl

/-! ## The proof data -/

/-- The arrays as the region finds them; after the body at point `t` each input's buffer at its block and the
    output's at the tile formula; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileOf (grid0.coords t) (iblk m c 0 t) (iblk m c 1 t) (k0_pay5 (iblk m c 0 t) (iblk m c 1 t)) (k0_pay6 (iblk m c 0 t) (iblk m c 1 t)) (k0_pay4 (iblk m c 0 t) (iblk m c 1 t))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tileOf (grid0.coords t) (iblk m c 0 t) (iblk m c 1 t) (k0_pay5 (iblk m c 0 t) (iblk m c 1 t)) (k0_pay6 (iblk m c 0 t) (iblk m c 1 t)) (k0_pay4 (iblk m c 0 t) (iblk m c 1 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## Inside a batch the input blocks do not change -/

theorem fetched0_0 (c : Dev nD) (s : Fin cfg0.N) (d) : (dats m 0 c).fetched 0 s d = iblk m c 0 s := by
  unfold Dat.fetched Dat.blockOf iblk; rw [A_eq]; try rfl
theorem fetched0_1 (c : Dev nD) (s : Fin cfg0.N) (d) : (dats m 0 c).fetched 1 s d = iblk m c 1 s := by
  unfold Dat.fetched Dat.blockOf iblk; rw [A_eq]; try rfl

/-- At a later tile the input window's block is the block of the point before. -/
theorem iblk0_prev (c : Dev nD) (t : Fin cfg0.N) (h : t.val % 6 ≠ 0) :
    iblk m c 0 ⟨t.val - 1, Nat.lt_of_le_of_lt (Nat.sub_le _ _) t.isLt⟩ = iblk m c 0 t :=
  (fetched0_0 m c _ (iblk m c 0 t)).symm.trans
    (((dats m 0 c).fetched_congr 0 (index0_0_prev t h) rfl (iblk m c 0 t)).trans (fetched0_0 m c t (iblk m c 0 t)))
/-- The packed columns' block is the same at every point. -/
theorem iblk1_prev (c : Dev nD) (t : Fin cfg0.N) :
    iblk m c 1 ⟨t.val - 1, Nat.lt_of_le_of_lt (Nat.sub_le _ _) t.isLt⟩ = iblk m c 1 t :=
  (fetched0_1 m c _ (iblk m c 1 t)).symm.trans
    (((dats m 0 c).fetched_congr 1 (index0_1_prev t) rfl (iblk m c 1 t)).trans (fetched0_1 m c t (iblk m c 1 t)))

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. At a batch's first tile the scratch buffers come in at anything (at the region's entry)
    or at the previous batch's projections, and go out at this batch's; at a later tile they come in at this
    batch's projections — the blocks have not changed since the point before — and go out untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  have hN : t.val < 48 := lt_of_lt_of_eq t.isLt (show cfg0.N = 48 from N_0)
  by_cases h0 : t.val % 6 = 0
  · by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t)).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro
            exact (View.read_writes_of_cover _ _ _ _ _ (scover0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))).trans
              (sout0_A_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))
          isplitl [HS1]
          · unfold owns; iexists _; isplitr
            swap; · iexact HS1
            ipureintro
            exact (View.read_writes_of_cover _ _ _ _ _ (scover0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))).trans
              (sout0_A_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))
          unfold owns; iexists _; isplitr
          swap; · iexact HS2
          ipureintro
          exact (View.read_writes_of_cover _ _ _ _ _ (scover0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))).trans
            (sout0_A_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))).trans
        (out0_A_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))
    · rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t)).2.2.2.2 Set.univ _)
      isplitl [H0]; · iexact H0
      isplitl [H1]; · iexact H1
      isplitl [H2]; · iexists _; iexact H2
      isplitl [HS0]; · iexists _; iexact HS0
      isplitl [HS1]; · iexists _; iexact HS1
      isplitl [HS2]; · iexists _; iexact HS2
      iintro ⟨H0, H1, ⟨%e2, H2⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro
            exact (View.read_writes_of_cover _ _ _ _ _ (scover0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))).trans
              (sout0_A_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))
          isplitl [HS1]
          · unfold owns; iexists _; isplitr
            swap; · iexact HS1
            ipureintro
            exact (View.read_writes_of_cover _ _ _ _ _ (scover0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))).trans
              (sout0_A_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))
          unfold owns; iexists _; isplitr
          swap; · iexact HS2
          ipureintro
          exact (View.read_writes_of_cover _ _ _ _ _ (scover0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))).trans
            (sout0_A_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))).trans
        (out0_A_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))
  · have hz : t.val ≠ 0 := fun e => h0 (by rw [e])
    rw [PhiS_castSucc m c t, PhiS_pos m c _ _ hz, iblk0_prev m c t h0, iblk1_prev m c t]
    iintro ⟨⟨⟨HS0, HS1, HS2⟩, Hg⟩, Ho, ⟨%d0, H0⟩, ⟨%d1, H1⟩, ⟨%d2, H2⟩⟩
    iapply ((kernelRun0_B c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (iblk m c 0 t) (iblk m c 1 t) (k0_pay5 (iblk m c 0 t) (iblk m c 1 t)) (k0_pay6 (iblk m c 0 t) (iblk m c 1 t)) (k0_pay4 (iblk m c 0 t) (iblk m c 1 t))).2 Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, ⟨%e2, H2⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    unfold owns; iexists _; isplitr
    swap; · iexact H2
    ipureintro
    exact (View.read_writes_of_cover _ _ _ _ _ (cover0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (iblk m c 0 t) (iblk m c 1 t) (k0_pay5 (iblk m c 0 t) (iblk m c 1 t)) (k0_pay6 (iblk m c 0 t) (iblk m c 1 t)) (k0_pay4 (iblk m c 0 t) (iblk m c 1 t)))).trans
      (out0_B_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (iblk m c 0 t) (iblk m c 1 t) (k0_pay5 (iblk m c 0 t) (iblk m c 1 t)) (k0_pay6 (iblk m c 0 t) (iblk m c 1 t)) (k0_pay4 (iblk m c 0 t) (iblk m c 1 t)))

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 48 := N_0; omega), PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of the program terminates, and ends with every array of the region at what the
    proof data says and every other buffer as the host line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its thirteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (run_main m ρ)

end Cert.Kernel.Hand

end
-- ==== Proof.KernelIdealAround.lean ====
/-
  The program around its one region, for any float instance.

  The host lines before the region compute the folded batch-norm scale and offset from the per-channel vectors
  and pack eight per-channel columns into one [256,8] array; the region runs over the grid of 8 batches by 6
  query tiles; one host line after it reshapes the result. Here: the memory as the region finds it, that the
  program is these three stretches in order, that no host line writes an argument array, each window's block
  at a grid point read off the array the region finds, the branch of the kernel body (taken exactly at the
  first query tile of a batch), and the scratch buffers as the region's invariant hands them over.
-/
import proofs.«110668_j27084063769111_2_alg».proof.Proof.Gen.KernelIdeal.Launch
import proofs.«110668_j27084063769111_2_alg».proof.Proof.Gen.KernelIdeal.Skeleton
import proofs.«110668_j27084063769111_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the region finds, and the program as three stretches -/

/-- Core `c`'s buffers when the region is entered: the launch memory after the host lines before the region. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the region, the region, the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches only the region's arrays and buffers the region leaves alone. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result buffer, which is none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## No host line writes an argument array -/

/-- The region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 0 ends as launched: the line after the region does not write it, and it is no array of the region. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- The region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 1 ends as launched: the line after the region does not write it, and it is no array of the region. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- The region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 2 ends as launched: the line after the region does not write it, and it is no array of the region. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- The region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 3 ends as launched: the line after the region does not write it, and it is no array of the region. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- The region finds argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 4 ends as launched: the line after the region does not write it, and it is no array of the region. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- The region finds argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 5 ends as launched: the line after the region does not write it, and it is no array of the region. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- The region finds argument 6 as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 6 ends as launched: the line after the region does not write it, and it is no array of the region. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- The region finds argument 7 as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 7 ends as launched: the line after the region does not write it, and it is no array of the region. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- The region finds argument 8 as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 8 ends as launched: the line after the region does not write it, and it is no array of the region. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-- The region finds argument 9 as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 9 ends as launched: the line after the region does not write it, and it is no array of the region. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c

/-- The region finds argument 10 as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 10 ends as launched: the line after the region does not write it, and it is no array of the region. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg10 (by exact (by decide : ∀ w, Pipeline.arrRef spec0 w ≠ main_arg10))]
  exact V_main_arg10 m c

/-- The region finds argument 11 as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 11 ends as launched: the line after the region does not write it, and it is no array of the region. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg11 (by exact (by decide : ∀ w, Pipeline.arrRef spec0 w ≠ main_arg11))]
  exact V_main_arg11 m c

/-- The region finds argument 12 as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- Argument 12 ends as launched: the line after the region does not write it, and it is no array of the region. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg12 (by exact (by decide : ∀ w, Pipeline.arrRef spec0 w ≠ main_arg12))]
  exact V_main_arg12 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The batch's input block sits in window 0's current staging buffer at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The packed per-channel columns sit in window 1's staging buffer at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the region -/

/-- From a run that ends with every buffer outside the region's arrays as the host line after the region leaves
    it, the thirteen argument arrays end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c)⟩) h

/-! ## The body's branch -/

/-- The condition of the body's one conditional: the query-tile coordinate is zero. -/
abbrev cond0_0 (i : grid0.Coords) : Prop := (Scalar.cmpi .ne (Scalar.extui (Scalar.cmpi .eq (BitVec.ofNat 32 (i 1).val) 0#32)) 0#32) = 1#1
/-- It holds exactly at the first of each batch's six points. -/
theorem hcond0_0 : ∀ t : Fin cfg0.N, cond0_0 (grid0.coords t) ↔ t.val % 6 = 0 :=
  (by decide +kernel : ∀ t : Fin grid0.N, cond0_0 (grid0.coords t) ↔ t.val % 6 = 0)

/-- Between two consecutive points of one batch the input window's block index does not move. -/
theorem index0_0_prev : ∀ t : Fin cfg0.N, t.val % 6 ≠ 0 →
    (cfg0.win 0).index ⟨t.val - 1, Nat.lt_of_le_of_lt (Nat.sub_le _ _) t.isLt⟩ = (cfg0.win 0).index t :=
  (by decide +kernel : ∀ t : Fin grid0.N, t.val % 6 ≠ 0 →
    win0_0.index ⟨t.val - 1, Nat.lt_of_le_of_lt (Nat.sub_le _ _) t.isLt⟩ = win0_0.index t)
/-- The packed columns' block index never moves. -/
theorem index0_1_prev : ∀ t : Fin cfg0.N,
    (cfg0.win 1).index ⟨t.val - 1, Nat.lt_of_le_of_lt (Nat.sub_le _ _) t.isLt⟩ = (cfg0.win 1).index t :=
  (by decide +kernel : ∀ t : Fin grid0.N,
    win0_1.index ⟨t.val - 1, Nat.lt_of_le_of_lt (Nat.sub_le _ _) t.isLt⟩ = win0_1.index t)

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-! ## The memrefs the body is called with -/

/-- One staging buffer of the output window, through which its contents are stated. -/
abbrev VO0_2 : View sig .tc .vmem S1x256x384 .f32 := (Memref.whole cc0_stg2_0 : Memref sig .tc .vmem S1x256x384 .f32).view
abbrev ms0_0 (t : Fin cfg0.N) : Memref sig .tc .vmem S1x256x2304 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x384 .f32 := win0_2.stage (cfg0.slots t 2)
abbrev hs0_2 (t : Fin cfg0.N) : (ms0_2 t).IsWhole := hstage0_2 ((cfg0.slots t 2).cast nbuf0_2)
/-- The three scratch buffers: the query, key and value projections of the current batch. -/
abbrev scM0_0 : Memref sig .tc .vmem S256x2304 .bf16 := Memref.whole cc0_scratch0
abbrev scM0_1 : Memref sig .tc .vmem S256x2304 .bf16 := Memref.whole cc0_scratch1
abbrev scM0_2 : Memref sig .tc .vmem S256x2304 .bf16 := Memref.whole cc0_scratch2

/-- The region's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KernelIdealFirstTile.lean ====
/-
  The kernel body at the first query tile of a batch.

  There the body first fills the three scratch buffers from the batch's input block and the packed per-channel
  columns (the value, query and key projections, each the input scaled and shifted per channel), then computes
  the tile as at every other point. On whole buffers, the two inputs at their contents and the scratch and the
  output buffer at anything, it runs to the end, leaves the inputs as they were and each of the four other
  buffers with a list of stored pieces, which the run finds.
-/
import proofs.«110668_j27084063769111_2_alg».proof.Proof.KernelIdealAround

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output buffer and in the three scratch buffers at a first tile,
    with the body's triple on whole buffers. -/
noncomputable def kernelRun0_A (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i)
    (x0 : Vec F S1x256x2304 .f32) (x1 : Vec F S256x8 .f32) :
    Σ' (L2 : List (View.Piece (Elt F) S1x256x384 .f32)) (LS0 : List (View.Piece (Elt F) S256x2304 .bf16)) (LS1 : List (View.Piece (Elt F) S256x2304 .bf16)), { LS2 : List (View.Piece (Elt F) S256x2304 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)
                ∗ (∃ f, arg7.view.loc (c : Thread nD τ) ↦[arg7.view.set]{fullShare} arg7.view.writes (Elt F) f LS2)) -∗ K ⟨⟩))
          ⊢ wp frame (wpE (defs₀ (F := F)) Variants.none c none) E (cc0__nonlocal_kernel i arg2 harg2 arg3 harg3 arg4 harg4 arg5 harg5 arg6 harg6 arg7 harg7) K } := by
  refine ⟨?_, ?_, ?_, ?_, fun E K => ?run⟩
  case run =>
    simp only [cc0__nonlocal_kernel_eq_skeleton]; unfold cc0__nonlocal_kernel_skel
    simp only [k0_part1_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.KernelIdeal.Hand

end
-- ==== Proof.KernelIdealLaterTile.lean ====
/-
  The kernel body at a later query tile of a batch.

  There the body only reads the three scratch buffers, which hold the batch's projections from the first tile.
  On whole buffers, the two inputs and the three scratch buffers at their contents and the output buffer at
  anything, it runs to the end, leaves the inputs and the scratch as they were and the output buffer with a
  list of stored pieces, which the run finds.
-/
import proofs.«110668_j27084063769111_2_alg».proof.Proof.KernelIdealFirstTile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output buffer at a later tile, with the body's triple. -/
noncomputable def kernelRun0_B (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : ¬cond0_0 i)
    (x0 : Vec F S1x256x2304 .f32) (x1 : Vec F S256x8 .f32) (xs0 xs1 xs2 : Vec F S256x2304 .bf16) :
    { L2 : List (View.Piece (Elt F) S1x256x384 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ owns (c : Thread nD τ) arg5 fullShare xs0 ∗ owns (c : Thread nD τ) arg6 fullShare xs1 ∗ owns (c : Thread nD τ) arg7 fullShare xs2) -∗ K ⟨⟩))
          ⊢ wp frame (wpE (defs₀ (F := F)) Variants.none c none) E (cc0__nonlocal_kernel i arg2 harg2 arg3 harg3 arg4 harg4 arg5 harg5 arg6 harg6 arg7 harg7) K } := by
  refine ⟨?_, fun E K => ?run⟩
  case run =>
    simp only [cc0__nonlocal_kernel_eq_skeleton]; unfold cc0__nonlocal_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]
    · iexists _; isplitr; · ipureintro; exact harg5.read_unread _
      iexact HS0
    isplitl [HS1]
    · iexists _; isplitr; · ipureintro; exact harg6.read_unread _
      iexact HS1
    iexists _; isplitr; · ipureintro; exact harg7.read_unread _
    iexact HS2

end Cert.KernelIdeal.Hand

end
-- ==== Proof.KernelIdealPieces.lean ====
/-
  What the body leaves in the output buffer and in the scratch buffers, read back.

  Each list of stored pieces the two runs find covers its buffer (every list is one store of the whole buffer),
  so the buffer's contents after the body are the pieces read back, whatever it held before.
-/
import proofs.«110668_j27084063769111_2_alg».proof.Proof.KernelIdealLaterTile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers as views: what they hold is stated through these. -/
abbrev VS0_0 : View sig .tc .vmem S256x2304 .bf16 := scM0_0.view
abbrev VS0_1 : View sig .tc .vmem S256x2304 .bf16 := scM0_1.view
abbrev VS0_2 : View sig .tc .vmem S256x2304 .bf16 := scM0_2.view

/-! ## The first tile of a batch -/

theorem cover0_A_2 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) (y : S1x256x384.Idx) :
    ∃ pc ∈ (kernelRun0_A c i arg2 harg2 arg3 harg3 arg4 harg4 arg5 harg5 arg6 harg6 arg7 harg7 hc0 x0 x1).1, y ∈ pc.1.set :=
  View.cover_of_tiledL (kernelRun0_A c i arg2 harg2 arg3 harg3 arg4 harg4 arg5 harg5 arg6 harg6 arg7 harg7 hc0 x0 x1).1 S1x256x384.size (by sl_kernel_rfl) y
/-- The output tile the first-tile body leaves. -/
def out0_A_2 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) : Vec F S1x256x384 .f32 :=
  VO0_2.read (Elt F) (VO0_2.writes (Elt F) VO0_2.junk (kernelRun0_A c i arg2 harg2 arg3 harg3 arg4 harg4 arg5 harg5 arg6 harg6 arg7 harg7 hc0 x0 x1).1)

theorem scover0_A_0 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) (y : S256x2304.Idx) :
    ∃ pc ∈ (kernelRun0_A c i arg2 harg2 arg3 harg3 arg4 harg4 arg5 harg5 arg6 harg6 arg7 harg7 hc0 x0 x1).2.1, y ∈ pc.1.set :=
  View.cover_of_tiledL (kernelRun0_A c i arg2 harg2 arg3 harg3 arg4 harg4 arg5 harg5 arg6 harg6 arg7 harg7 hc0 x0 x1).2.1 S256x2304.size (by sl_kernel_rfl) y
/-- What the first-tile body leaves in the first scratch buffer (the query projection). -/
def sout0_A_0 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) : Vec F S256x2304 .bf16 :=
  VS0_0.read (Elt F) (VS0_0.writes (Elt F) VS0_0.junk (kernelRun0_A c i arg2 harg2 arg3 harg3 arg4 harg4 arg5 harg5 arg6 harg6 arg7 harg7 hc0 x0 x1).2.1)

theorem scover0_A_1 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) (y : S256x2304.Idx) :
    ∃ pc ∈ (kernelRun0_A c i arg2 harg2 arg3 harg3 arg4 harg4 arg5 harg5 arg6 harg6 arg7 harg7 hc0 x0 x1).2.2.1, y ∈ pc.1.set :=
  View.cover_of_tiledL (kernelRun0_A c i arg2 harg2 arg3 harg3 arg4 harg4 arg5 harg5 arg6 harg6 arg7 harg7 hc0 x0 x1).2.2.1 S256x2304.size (by sl_kernel_rfl) y
/-- What it leaves in the second (the key projection). -/
def sout0_A_1 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) : Vec F S256x2304 .bf16 :=
  VS0_1.read (Elt F) (VS0_1.writes (Elt F) VS0_1.junk (kernelRun0_A c i arg2 harg2 arg3 harg3 arg4 harg4 arg5 harg5 arg6 harg6 arg7 harg7 hc0 x0 x1).2.2.1)

theorem scover0_A_2 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) (y : S256x2304.Idx) :
    ∃ pc ∈ (kernelRun0_A c i arg2 harg2 arg3 harg3 arg4 harg4 arg5 harg5 arg6 harg6 arg7 harg7 hc0 x0 x1).2.2.2.1, y ∈ pc.1.set :=
  View.cover_of_tiledL (kernelRun0_A c i arg2 harg2 arg3 harg3 arg4 harg4 arg5 harg5 arg6 harg6 arg7 harg7 hc0 x0 x1).2.2.2.1 S256x2304.size (by sl_kernel_rfl) y
/-- What it leaves in the third (the value projection). -/
def sout0_A_2 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) : Vec F S256x2304 .bf16 :=
  VS0_2.read (Elt F) (VS0_2.writes (Elt F) VS0_2.junk (kernelRun0_A c i arg2 harg2 arg3 harg3 arg4 harg4 arg5 harg5 arg6 harg6 arg7 harg7 hc0 x0 x1).2.2.2.1)

/-! ## A later tile -/

theorem cover0_B_2 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : ¬cond0_0 i) (x0 : Vec F S1x256x2304 .f32) (x1 : Vec F S256x8 .f32) (xs0 xs1 xs2 : Vec F S256x2304 .bf16) (y : S1x256x384.Idx) :
    ∃ pc ∈ (kernelRun0_B c i arg2 harg2 arg3 harg3 arg4 harg4 arg5 harg5 arg6 harg6 arg7 harg7 hc0 x0 x1 xs0 xs1 xs2).1, y ∈ pc.1.set :=
  View.cover_of_tiledL (kernelRun0_B c i arg2 harg2 arg3 harg3 arg4 harg4 arg5 harg5 arg6 harg6 arg7 harg7 hc0 x0 x1 xs0 xs1 xs2).1 S1x256x384.size (by sl_kernel_rfl) y
/-- The output tile a later-tile body leaves. -/
def out0_B_2 (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : ¬cond0_0 i) (x0 : Vec F S1x256x2304 .f32) (x1 : Vec F S256x8 .f32) (xs0 xs1 xs2 : Vec F S256x2304 .bf16) : Vec F S1x256x384 .f32 :=
  VO0_2.read (Elt F) (VO0_2.writes (Elt F) VO0_2.junk (kernelRun0_B c i arg2 harg2 arg3 harg3 arg4 harg4 arg5 harg5 arg6 harg6 arg7 harg7 hc0 x0 x1 xs0 xs1 xs2).1)

end Cert.KernelIdeal.Hand

end
-- ==== Proof.KernelIdealPayloads.lean ====
/-
  The contents the body leaves, named.

  At the first tile of a batch the three scratch buffers end at the per-channel projections of the batch's input
  block (the stores' values, as functions of the two input buffers' contents). At every tile the output buffer
  ends at one formula of: the input block, the packed columns, and the three projections — at the first tile the
  ones just stored, at a later tile the ones the scratch buffers still hold. The query slab and the input's own
  tile are the columns 384·q … 384·q + 383 of their arrays, q the tile's coordinate.
-/
import proofs.«110668_j27084063769111_2_alg».proof.Proof.KernelIdealPieces
import proofs.«110668_j27084063769111_2_alg».proof.Proof.LibWholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero2 : (![0, 0] : Fin 2 → Nat) = fun _ => 0 := by funext a; fin_cases a <;> rfl
theorem zero3 : (![0, 0, 0] : Fin 3 → Nat) = fun _ => 0 := by funext a; fin_cases a <;> rfl

/-- The query slab of tile `i`: columns 384·q … of a [256,2304] array. -/
def slab (i : grid0.Coords) (xs0 : Vec F S256x2304 .bf16) : Vec F S256x384 .bf16 :=
  View.ld xs0 (Rect.unit (s := S256x2304) (k0_off1 i) S256x384.size (k0_off1_inb i))
/-- The input block's own tile: the same columns of the [1,256,2304] block. -/
def ownTile (i : grid0.Coords) (x0 : Vec F S1x256x2304 .f32) : Vec F S1x256x384 .f32 :=
  View.ld x0 (Rect.unit (s := S1x256x2304) (k0_off2 i) S1x256x384.size (k0_off2_inb i))
/-- The output tile as one formula of the input block, the packed columns and the three projections. -/
def tileOf (i : grid0.Coords) (x0 : Vec F S1x256x2304 .f32) (x1 : Vec F S256x8 .f32) (xs0 xs1 xs2 : Vec F S256x2304 .bf16) : Vec F S1x256x384 .f32 :=
  k0_pay1 (k0_pay7 (slab i xs0) xs1 xs2 x1 (ownTile i x0))

theorem sout0_A_0_eq (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) :
    sout0_A_0 c i arg2 harg2 arg3 harg3 arg4 harg4 arg5 harg5 arg6 harg6 arg7 harg7 hc0 x0 x1 = k0_pay5 x0 x1 := by
  unfold sout0_A_0
  rw [View.read_writes_eq_canon _ _ _ (scover0_A_0 c i arg2 harg2 arg3 harg3 arg4 harg4 arg5 harg5 arg6 harg6 arg7 harg7 hc0 x0 x1)]
  unfold kernelRun0_A; dsimp only
  sl_unfold_words
  rw [View.canon_unit_zero (S := S256x2304) zero2]
  simp only [View.readAt_eq_ld, harg2.read_unread, harg3.read_unread, View.ld_unit_zero (S := S1x256x2304) zero3, View.ld_unit_zero (S := S256x8) zero2]

theorem sout0_A_1_eq (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) :
    sout0_A_1 c i arg2 harg2 arg3 harg3 arg4 harg4 arg5 harg5 arg6 harg6 arg7 harg7 hc0 x0 x1 = k0_pay6 x0 x1 := by
  unfold sout0_A_1
  rw [View.read_writes_eq_canon _ _ _ (scover0_A_1 c i arg2 harg2 arg3 harg3 arg4 harg4 arg5 harg5 arg6 harg6 arg7 harg7 hc0 x0 x1)]
  unfold kernelRun0_A; dsimp only
  sl_unfold_words
  rw [View.canon_unit_zero (S := S256x2304) zero2]
  simp only [View.readAt_eq_ld, harg2.read_unread, harg3.read_unread, View.ld_unit_zero (S := S1x256x2304) zero3, View.ld_unit_zero (S := S256x8) zero2]

theorem sout0_A_2_eq (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) :
    sout0_A_2 c i arg2 harg2 arg3 harg3 arg4 harg4 arg5 harg5 arg6 harg6 arg7 harg7 hc0 x0 x1 = k0_pay4 x0 x1 := by
  unfold sout0_A_2
  rw [View.read_writes_eq_canon _ _ _ (scover0_A_2 c i arg2 harg2 arg3 harg3 arg4 harg4 arg5 harg5 arg6 harg6 arg7 harg7 hc0 x0 x1)]
  unfold kernelRun0_A; dsimp only
  sl_unfold_words
  rw [View.canon_unit_zero (S := S256x2304) zero2]
  simp only [View.readAt_eq_ld, harg2.read_unread, harg3.read_unread, View.ld_unit_zero (S := S1x256x2304) zero3, View.ld_unit_zero (S := S256x8) zero2]

theorem out0_A_2_eq (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : cond0_0 i) (x0 : Vec F S1x256x2304 .f32) (x1 : Vec F S256x8 .f32) :
    out0_A_2 c i arg2 harg2 arg3 harg3 arg4 harg4 arg5 harg5 arg6 harg6 arg7 harg7 hc0 x0 x1 = tileOf i x0 x1 (k0_pay5 x0 x1) (k0_pay6 x0 x1) (k0_pay4 x0 x1) := by
  unfold out0_A_2
  rw [View.read_writes_eq_canon _ _ _ (cover0_A_2 c i arg2 harg2 arg3 harg3 arg4 harg4 arg5 harg5 arg6 harg6 arg7 harg7 hc0 x0 x1)]
  unfold kernelRun0_A; dsimp only
  sl_unfold_words
  rw [View.canon_unit_zero (S := S1x256x384) zero3]
  simp only [View.readAt_eq_ld, harg2.read_unread, harg3.read_unread, View.ld_unit_zero (S := S1x256x2304) zero3, View.ld_unit_zero (S := S256x8) zero2]
  rw [View.read_writes_whole_last (S := S256x2304) arg5.view _ zero2, View.readCov_unit_zero (S := S256x2304) arg6.view zero2,
    View.readCov_unit_zero (S := S256x2304) arg7.view zero2]
  rfl

theorem out0_B_2_eq (c : Dev nD) (i : grid0.Coords) (arg2 : Memref sig .tc .vmem S1x256x2304 .f32) (harg2 : arg2.IsWhole) (arg3 : Memref sig .tc .vmem S256x8 .f32) (harg3 : arg3.IsWhole) (arg4 : Memref sig .tc .vmem S1x256x384 .f32) (harg4 : arg4.IsWhole) (arg5 : Memref sig .tc .vmem S256x2304 .bf16) (harg5 : arg5.IsWhole) (arg6 : Memref sig .tc .vmem S256x2304 .bf16) (harg6 : arg6.IsWhole) (arg7 : Memref sig .tc .vmem S256x2304 .bf16) (harg7 : arg7.IsWhole) (hc0 : ¬cond0_0 i) (x0 : Vec F S1x256x2304 .f32) (x1 : Vec F S256x8 .f32) (xs0 xs1 xs2 : Vec F S256x2304 .bf16) :
    out0_B_2 c i arg2 harg2 arg3 harg3 arg4 harg4 arg5 harg5 arg6 harg6 arg7 harg7 hc0 x0 x1 xs0 xs1 xs2 = tileOf i x0 x1 xs0 xs1 xs2 := by
  unfold out0_B_2
  rw [View.read_writes_eq_canon _ _ _ (cover0_B_2 c i arg2 harg2 arg3 harg3 arg4 harg4 arg5 harg5 arg6 harg6 arg7 harg7 hc0 x0 x1 xs0 xs1 xs2)]
  unfold kernelRun0_B; dsimp only
  sl_unfold_words
  rw [View.canon_unit_zero (S := S1x256x384) zero3]
  simp only [View.readAt_eq_ld, harg2.read_unread, harg3.read_unread, harg5.read_unread, harg6.read_unread, harg7.read_unread, View.ld_unit_zero (S := S256x2304) zero2, View.ld_unit_zero (S := S256x8) zero2]
  rfl

end Cert.KernelIdeal.Hand

end
-- ==== Proof.KernelIdealRun.lean ====
/-
  The region's run, point by point, and the frame.

  After the body at grid point `t` the three scratch buffers hold the per-channel projections of the batch's
  input block — stored at the batch's first tile and only read at its later tiles, where the input window's block
  is still the same block — and the output buffer holds the tile formula of the point's blocks. With this as the
  region's proof data the body meets its obligation at every point, the region runs, and with the host lines
  around it the whole program runs to the end with its argument arrays unchanged.
-/
import proofs.«110668_j27084063769111_2_alg».proof.Proof.KernelIdealPayloads

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- Before point `n`: at the region's entry the scratch buffers at anything; afterwards at the projections of the
    blocks of the point before. -/
def PhiS (c : Dev nD) : (n : ℕ) → n ≤ cfg0.N → sProp 𝕄
  | 0, _ => Pipeline.ΦA spec0 c
  | n + 1, hn => iprop(iprop(owns (c : Thread nD τ) scM0_0 fullShare (k0_pay5 (iblk m c 0 ⟨n, hn⟩) (iblk m c 1 ⟨n, hn⟩))
      ∗ owns (c : Thread nD τ) scM0_1 fullShare (k0_pay6 (iblk m c 0 ⟨n, hn⟩) (iblk m c 1 ⟨n, hn⟩))
      ∗ owns (c : Thread nD τ) scM0_2 fullShare (k0_pay4 (iblk m c 0 ⟨n, hn⟩) (iblk m c 1 ⟨n, hn⟩))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (k0_pay5 (iblk m c 0 ⟨n, hn⟩) (iblk m c 1 ⟨n, hn⟩))
      ∗ owns (c : Thread nD τ) scM0_1 fullShare (k0_pay6 (iblk m c 0 ⟨n, hn⟩) (iblk m c 1 ⟨n, hn⟩))
      ∗ owns (c : Thread nD τ) scM0_2 fullShare (k0_pay4 (iblk m c 0 ⟨n, hn⟩) (iblk m c 1 ⟨n, hn⟩))) ∗ (∃ r, prngReg c r)) := rfl

theorem PhiS_pos (c : Dev nD) (n : ℕ) (h : n ≤ cfg0.N) (hz : n ≠ 0) :
    PhiS m c n h = iprop(iprop(owns (c : Thread nD τ) scM0_0 fullShare (k0_pay5 (iblk m c 0 ⟨n - 1, by omega⟩) (iblk m c 1 ⟨n - 1, by omega⟩))
      ∗ owns (c : Thread nD τ) scM0_1 fullShare (k0_pay6 (iblk m c 0 ⟨n - 1, by omega⟩) (iblk m c 1 ⟨n - 1, by omega⟩))
      ∗ owns (c : Thread nD τ) scM0_2 fullShare (k0_pay4 (iblk m c 0 ⟨n - 1, by omega⟩) (iblk m c 1 ⟨n - 1, by omega⟩))) ∗ (∃ r, prngReg c r)) := by
  cases n with
  | zero => exact absurd rfl hz
  | succ n => rfl

/-! ## The proof data -/

/-- The arrays as the region finds them; after the body at point `t` each input's buffer at its block and the
    output's at the tile formula; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileOf (grid0.coords t) (iblk m c 0 t) (iblk m c 1 t) (k0_pay5 (iblk m c 0 t) (iblk m c 1 t)) (k0_pay6 (iblk m c 0 t) (iblk m c 1 t)) (k0_pay4 (iblk m c 0 t) (iblk m c 1 t))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tileOf (grid0.coords t) (iblk m c 0 t) (iblk m c 1 t) (k0_pay5 (iblk m c 0 t) (iblk m c 1 t)) (k0_pay6 (iblk m c 0 t) (iblk m c 1 t)) (k0_pay4 (iblk m c 0 t) (iblk m c 1 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## Inside a batch the input blocks do not change -/

theorem fetched0_0 (c : Dev nD) (s : Fin cfg0.N) (d) : (dats m 0 c).fetched 0 s d = iblk m c 0 s := by
  unfold Dat.fetched Dat.blockOf iblk; rw [A_eq]; try rfl
theorem fetched0_1 (c : Dev nD) (s : Fin cfg0.N) (d) : (dats m 0 c).fetched 1 s d = iblk m c 1 s := by
  unfold Dat.fetched Dat.blockOf iblk; rw [A_eq]; try rfl

/-- At a later tile the input window's block is the block of the point before. -/
theorem iblk0_prev (c : Dev nD) (t : Fin cfg0.N) (h : t.val % 6 ≠ 0) :
    iblk m c 0 ⟨t.val - 1, Nat.lt_of_le_of_lt (Nat.sub_le _ _) t.isLt⟩ = iblk m c 0 t :=
  (fetched0_0 m c _ (iblk m c 0 t)).symm.trans
    (((dats m 0 c).fetched_congr 0 (index0_0_prev t h) rfl (iblk m c 0 t)).trans (fetched0_0 m c t (iblk m c 0 t)))
/-- The packed columns' block is the same at every point. -/
theorem iblk1_prev (c : Dev nD) (t : Fin cfg0.N) :
    iblk m c 1 ⟨t.val - 1, Nat.lt_of_le_of_lt (Nat.sub_le _ _) t.isLt⟩ = iblk m c 1 t :=
  (fetched0_1 m c _ (iblk m c 1 t)).symm.trans
    (((dats m 0 c).fetched_congr 1 (index0_1_prev t) rfl (iblk m c 1 t)).trans (fetched0_1 m c t (iblk m c 1 t)))

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. At a batch's first tile the scratch buffers come in at anything (at the region's entry)
    or at the previous batch's projections, and go out at this batch's; at a later tile they come in at this
    batch's projections — the blocks have not changed since the point before — and go out untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  have hN : t.val < 48 := lt_of_lt_of_eq t.isLt (show cfg0.N = 48 from N_0)
  by_cases h0 : t.val % 6 = 0
  · by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t)).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro
            exact (View.read_writes_of_cover _ _ _ _ _ (scover0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))).trans
              (sout0_A_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))
          isplitl [HS1]
          · unfold owns; iexists _; isplitr
            swap; · iexact HS1
            ipureintro
            exact (View.read_writes_of_cover _ _ _ _ _ (scover0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))).trans
              (sout0_A_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))
          unfold owns; iexists _; isplitr
          swap; · iexact HS2
          ipureintro
          exact (View.read_writes_of_cover _ _ _ _ _ (scover0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))).trans
            (sout0_A_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))).trans
        (out0_A_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))
    · rw [PhiS_castSucc m c t, PhiS_pos m c _ _ hz]
      iintro ⟨⟨⟨HS0, HS1, HS2⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t)).2.2.2.2 Set.univ _)
      isplitl [H0]; · iexact H0
      isplitl [H1]; · iexact H1
      isplitl [H2]; · iexists _; iexact H2
      isplitl [HS0]; · iexists _; iexact HS0
      isplitl [HS1]; · iexists _; iexact HS1
      isplitl [HS2]; · iexists _; iexact HS2
      iintro ⟨H0, H1, ⟨%e2, H2⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro
            exact (View.read_writes_of_cover _ _ _ _ _ (scover0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))).trans
              (sout0_A_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))
          isplitl [HS1]
          · unfold owns; iexists _; isplitr
            swap; · iexact HS1
            ipureintro
            exact (View.read_writes_of_cover _ _ _ _ _ (scover0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))).trans
              (sout0_A_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))
          unfold owns; iexists _; isplitr
          swap; · iexact HS2
          ipureintro
          exact (View.read_writes_of_cover _ _ _ _ _ (scover0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))).trans
            (sout0_A_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))).trans
        (out0_A_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t))
  · have hz : t.val ≠ 0 := fun e => h0 (by rw [e])
    rw [PhiS_castSucc m c t, PhiS_pos m c _ _ hz, iblk0_prev m c t h0, iblk1_prev m c t]
    iintro ⟨⟨⟨HS0, HS1, HS2⟩, Hg⟩, Ho, ⟨%d0, H0⟩, ⟨%d1, H1⟩, ⟨%d2, H2⟩⟩
    iapply ((kernelRun0_B c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (iblk m c 0 t) (iblk m c 1 t) (k0_pay5 (iblk m c 0 t) (iblk m c 1 t)) (k0_pay6 (iblk m c 0 t) (iblk m c 1 t)) (k0_pay4 (iblk m c 0 t) (iblk m c 1 t))).2 Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, ⟨%e2, H2⟩, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    unfold owns; iexists _; isplitr
    swap; · iexact H2
    ipureintro
    exact (View.read_writes_of_cover _ _ _ _ _ (cover0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (iblk m c 0 t) (iblk m c 1 t) (k0_pay5 (iblk m c 0 t) (iblk m c 1 t)) (k0_pay6 (iblk m c 0 t) (iblk m c 1 t)) (k0_pay4 (iblk m c 0 t) (iblk m c 1 t)))).trans
      (out0_B_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (iblk m c 0 t) (iblk m c 1 t) (k0_pay5 (iblk m c 0 t) (iblk m c 1 t)) (k0_pay6 (iblk m c 0 t) (iblk m c 1 t)) (k0_pay4 (iblk m c 0 t) (iblk m c 1 t)))

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 48 := N_0; omega), PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of the program terminates, and ends with every array of the region at what the
    proof data says and every other buffer as the host line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its thirteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (run_main m ρ)

end Cert.KernelIdeal.Hand

end
-- ==== Proof.AttnConsts.lean ====
/-
  The float constants the two programs spell, as extended reals: minus infinity (where a maximum starts), one (the
  numerator of the reciprocal), plus infinity (the finiteness test's bound), and the batch normalisation's small
  positive constant, which is a positive real.
-/
import Idealize.ShloMosaic.PureOps.Ideal
import Idealize.ShloMosaic.PureOps.Ideal.Laws

noncomputable section

namespace Cert.Attn.Consts

open Idealize.ShloMosaic

theorem ofBits_neg_inf : Ideal.ofBits .f32 0xFF800000#32 = ⊥ := by
  simp [Ideal.ofBits, Ideal.ieee]

theorem ofBits_pos_inf : Ideal.ofBits .f32 0x7F800000#32 = ⊤ := by
  simp [Ideal.ofBits, Ideal.ieee]

theorem ofBits_one : Ideal.ofBits .f32 0x3F800000#32 = 1 := by
  simp [Ideal.ofBits, Ideal.ieee, -EReal.coe_mul]; norm_num

/-- The constant added to the variance: a positive real (10995116 · 2⁻⁴⁰). -/
theorem eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

end Cert.Attn.Consts

end
-- ==== Proof.LibRealValued.lean ====
/-
  Real-valued extended reals.

  An extended real is REAL when it is neither infinity. Finite float inputs are real entries; sums, differences,
  products, finite sums, maxima and exponentials of real entries are real, so every intermediate of a program built
  from those operations on finite inputs — a matrix product plus a bias, a score, a softmax weight — is real, and a
  whole array of real entries is the coercion of one real-valued function (`exists_real_fun`). This is what lets an
  identity proved over the reals (distributivity, cancelling a positive factor, exp of a sum) be used on the extended
  reals, where it fails at the infinities.
-/
import Idealize.ShloMosaic.PureOps.Ideal

noncomputable section

namespace Cert.Lib.RealValued

open Idealize.ShloMosaic

/-- `x` is the coercion of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Neither infinity: real. -/
theorem isReal_of_ne {x : EReal} (ht : x ≠ ⊤) (hb : x ≠ ⊥) : IsReal x :=
  ⟨x.toReal, (EReal.coe_toReal ht hb).symm⟩

/-- The element fact a "finite input" precondition states, `|x| < +∞` with `|x| = max x (-x)`: the entry is real. -/
theorem isReal_of_abs_lt_top {x : EReal} (h : max x (-x) < ⊤) : IsReal x := by
  refine isReal_of_ne (fun e => ?_) (fun e => ?_)
  · rw [e] at h; exact absurd h (by simp)
  · rw [e] at h; exact absurd h (by simp)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

theorem IsReal.exp {x : EReal} (hx : IsReal x) : IsReal (Ideal.exp x) := by
  obtain ⟨a, rfl⟩ := hx; exact ⟨Real.exp a, rfl⟩

/-- A finite sum of real entries is real. -/
theorem IsReal.sum {ι : Type*} (S : Finset ι) {f : ι → EReal} (h : ∀ i ∈ S, IsReal (f i)) :
    IsReal (∑ i ∈ S, f i) := by
  classical
  induction S using Finset.induction_on with
  | empty => simpa using isReal_zero
  | insert a S ha ih =>
    rw [Finset.sum_insert ha]
    exact (h a (Finset.mem_insert_self a S)).add (ih fun i hi => h i (Finset.mem_insert_of_mem hi))

/-- A contraction of two arrays of real entries — one entry of a matrix product into a real accumulator — is real. -/
theorem isReal_dot {κ : Type*} [Fintype κ] {x y : κ → EReal} {acc : EReal} (hacc : IsReal acc)
    (hx : ∀ k, IsReal (x k)) (hy : ∀ k, IsReal (y k)) : IsReal (acc + ∑ k, x k * y k) :=
  hacc.add (IsReal.sum _ fun k _ => (hx k).mul (hy k))

/-- An array of real entries is the coercion of one real-valued function. -/
theorem exists_real_fun {α : Type*} {f : α → EReal} (h : ∀ a, IsReal (f a)) :
    ∃ g : α → ℝ, ∀ a, f a = ((g a : ℝ) : EReal) :=
  ⟨fun a => (h a).choose, fun a => (h a).choose_spec⟩

end Cert.Lib.RealValued

end
-- ==== Proof.LibRealLaws.lean ====
/-
  Laws of real-valued extended reals.

  Over the extended reals a factor cannot in general be moved across a sum, nor two affine maps collected into one:
  both fail at the infinities. They hold when every entry is a real number. Here: the coercion of a finite sum of
  reals; a real factor moved across a finite sum of real entries; the maximum of finitely many real entries folded
  from minus infinity over a nonempty set is real; a nonempty finite sum of exponentials of real entries is a nonzero
  real (so dividing by it is multiplying by its reciprocal); and scaling by `s` after `y ↦ y·w + b`, then shifting by
  `k`, is `y ↦ y·(w·s) + (b·s + k)`.
-/
import Idealize.ShloMosaic.PureOps.Ideal
import proofs.«110668_j27084063769111_2_alg».proof.Proof.LibRealValued

noncomputable section

namespace Cert.Lib.RealLaws

open Idealize.ShloMosaic Cert.Lib.RealValued

/-- The coercion of a finite sum of reals is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A real factor moves across a finite sum of real entries. -/
theorem sum_mul_real {ι : Type*} [Fintype ι] {f : ι → EReal} {a : EReal} (hf : ∀ i, IsReal (f i)) (ha : IsReal a) :
    (∑ i, f i) * a = ∑ i, f i * a := by
  obtain ⟨g, hg⟩ := exists_real_fun hf
  obtain ⟨r, rfl⟩ := ha
  have e : f = fun i => ((g i : ℝ) : EReal) := funext hg
  subst e
  rw [← coe_sum, ← EReal.coe_mul, Finset.sum_mul, coe_sum]
  exact Finset.sum_congr rfl fun i _ => EReal.coe_mul _ _

/-- The maximum of finitely many real entries, folded from minus infinity over a nonempty set, is real. -/
theorem isReal_fold_max {ι : Type*} [DecidableEq ι] (S : Finset ι) (f : ι → EReal) (hf : ∀ i, IsReal (f i))
    (hS : S.Nonempty) : IsReal (S.fold max ⊥ f) := by
  induction S using Finset.induction_on with
  | empty => exact absurd hS (by simp)
  | insert a S ha ih =>
    rw [Finset.fold_insert ha]
    rcases S.eq_empty_or_nonempty with rfl | hne
    · rw [Finset.fold_empty, max_bot_right]; exact hf a
    · exact (hf a).max (ih hne)

/-- A nonempty finite sum of exponentials of real entries is a nonzero real. -/
theorem sum_exp_real {ι : Type*} [Fintype ι] [Nonempty ι] {z : ι → EReal} (hz : ∀ i, IsReal (z i)) :
    ∃ L : ℝ, L ≠ 0 ∧ ∑ i, Ideal.exp (z i) = (L : EReal) := by
  obtain ⟨r, hr⟩ := exists_real_fun hz
  refine ⟨∑ i, Real.exp (r i), ne_of_gt (Finset.sum_pos (fun i _ => Real.exp_pos _) Finset.univ_nonempty), ?_⟩
  rw [coe_sum]
  exact Finset.sum_congr rfl fun i _ => by rw [hr i]; rfl

/-- Collecting two affine maps: scaling by `s` after `y ↦ y·w + b`, then shifting by `k`, is
    `y ↦ y·(w·s) + (b·s + k)`, for real entries. -/
theorem affine_fold {y w b s k : EReal} (hy : IsReal y) (hw : IsReal w) (hb : IsReal b) (hs : IsReal s) (hk : IsReal k) :
    y * (w * s) + (b * s + k) = (y * w + b) * s + k := by
  obtain ⟨y, rfl⟩ := hy; obtain ⟨w, rfl⟩ := hw; obtain ⟨b, rfl⟩ := hb; obtain ⟨s, rfl⟩ := hs; obtain ⟨k, rfl⟩ := hk
  exact_mod_cast (by ring : y * (w * s) + (b * s + k) = (y * w + b) * s + k)

end Cert.Lib.RealLaws

end
-- ==== Proof.AttnSpec.lean ====
/-
  One batch of the block, as mathematics, in the kernel's arrangement and in the reference's.

  For one batch, `x c n` is the input at channel `c` and position `n` (2304 positions, 256 channels). The three
  projections scale and shift each channel. The score of a key position `m` against a query position `n` is the
  sum over channels of the two projections' product; the weights are the exponentials of the scores less their
  maximum over `m`; the attended value is the weights' average of the value projection; an output projection and a
  batch normalisation follow, and the input is added back.

  The kernel sums `value · weight` first and multiplies by the reciprocal of the weights' sum afterwards, and it
  folds the batch normalisation's scale `inv` into the output projection beforehand; the reference divides each
  weight by the sum first and applies the two affine maps one after the other. Over the extended reals these agree
  when every entry is a real number: moving a factor across a sum and collecting the affine maps are laws of the
  reals that fail at the infinities. The order of the two factors in the score and the reference's second maximum
  against minus infinity make no difference anywhere.
-/
import Idealize.ShloMosaic.PureOps.Ideal
import proofs.«110668_j27084063769111_2_alg».proof.Proof.LibRealValued
import proofs.«110668_j27084063769111_2_alg».proof.Proof.LibRealLaws

noncomputable section

namespace Cert.Attn

open Idealize.ShloMosaic Cert.Lib.RealValued Cert.Lib.RealLaws

/-! ## The block -/

section
variable (x : Fin 256 → Fin 2304 → EReal) (wg bg wt bt wp bp wo bo inv shift weff beff : Fin 256 → EReal)

/-- The query, key and value projections. -/
def theta (c : Fin 256) (n : Fin 2304) : EReal := x c n * wt c + bt c
def phi (c : Fin 256) (m : Fin 2304) : EReal := x c m * wp c + bp c
def gee (c : Fin 256) (m : Fin 2304) : EReal := x c m * wg c + bg c

/-! ### The kernel's arrangement -/

def scoreK (m n : Fin 2304) : EReal := ∑ c, phi x wp bp c m * theta x wt bt c n
def maxK (n : Fin 2304) : EReal := (Finset.univ : Finset (Fin 2304)).fold max ⊥ (fun m => scoreK x wt bt wp bp m n)
def expK (m n : Fin 2304) : EReal := Ideal.exp (scoreK x wt bt wp bp m n - maxK x wt bt wp bp n)
def sumK (n : Fin 2304) : EReal := ∑ m, expK x wt bt wp bp m n
def attnK (c : Fin 256) (n : Fin 2304) : EReal :=
  (∑ m, gee x wg bg c m * expK x wt bt wp bp m n) * Ideal.div 1 (sumK x wt bt wp bp n)
/-- The kernel's result: one affine map per channel (the output projection with the scale folded in, `weff` and
    `beff`), then the input added back. -/
def outK (c : Fin 256) (n : Fin 2304) : EReal :=
  attnK x wg bg wt bt wp bp c n * weff c + beff c + x c n

/-! ### The reference's arrangement -/

def scoreR (n m : Fin 2304) : EReal := ∑ c, theta x wt bt c n * phi x wp bp c m
def maxR (n : Fin 2304) : EReal := max ⊥ ((Finset.univ : Finset (Fin 2304)).fold max ⊥ (fun m => scoreR x wt bt wp bp n m))
def expR (n m : Fin 2304) : EReal := Ideal.exp (scoreR x wt bt wp bp n m - maxR x wt bt wp bp n)
def sumR (n : Fin 2304) : EReal := 0 + ∑ m, expR x wt bt wp bp n m
def attnR (n : Fin 2304) (c : Fin 256) : EReal :=
  ∑ m, Ideal.div (expR x wt bt wp bp n m) (sumR x wt bt wp bp n) * gee x wg bg c m
/-- The reference's result. -/
def outR (c : Fin 256) (n : Fin 2304) : EReal :=
  (attnR x wg bg wt bt wp bp n c * wo c + bo c) * inv c + shift c + x c n

/-! ### They agree on real entries -/

theorem scoreR_eq (n m : Fin 2304) : scoreR x wt bt wp bp n m = scoreK x wt bt wp bp m n :=
  Finset.sum_congr rfl fun c _ => mul_comm _ _

theorem maxR_eq (n : Fin 2304) : maxR x wt bt wp bp n = maxK x wt bt wp bp n := by
  unfold maxR maxK
  rw [max_bot_left]
  exact congrArg (fun f => Finset.fold max ⊥ f (Finset.univ : Finset (Fin 2304))) (funext fun m => scoreR_eq x wt bt wp bp n m)

theorem expR_eq (n m : Fin 2304) : expR x wt bt wp bp n m = expK x wt bt wp bp m n := by
  unfold expR expK; rw [scoreR_eq, maxR_eq]

theorem sumR_eq (n : Fin 2304) : sumR x wt bt wp bp n = sumK x wt bt wp bp n := by
  unfold sumR sumK; rw [zero_add]; exact Finset.sum_congr rfl fun m _ => expR_eq x wt bt wp bp n m

theorem isReal_gee (hx : ∀ c n, IsReal (x c n)) (hwg : ∀ c, IsReal (wg c)) (hbg : ∀ c, IsReal (bg c)) (c : Fin 256) (m : Fin 2304) :
    IsReal (gee x wg bg c m) := ((hx c m).mul (hwg c)).add (hbg c)

variable (hx : ∀ c n, IsReal (x c n))
  (hwg : ∀ c, IsReal (wg c)) (hbg : ∀ c, IsReal (bg c)) (hwt : ∀ c, IsReal (wt c)) (hbt : ∀ c, IsReal (bt c))
  (hwp : ∀ c, IsReal (wp c)) (hbp : ∀ c, IsReal (bp c))
include hx hwt hbt hwp hbp

theorem isReal_scoreK (m n : Fin 2304) : IsReal (scoreK x wt bt wp bp m n) :=
  IsReal.sum _ fun c _ => (((hx c m).mul (hwp c)).add (hbp c)).mul (((hx c n).mul (hwt c)).add (hbt c))

theorem isReal_maxK (n : Fin 2304) : IsReal (maxK x wt bt wp bp n) :=
  isReal_fold_max _ _ (fun m => isReal_scoreK x wt bt wp bp hx hwt hbt hwp hbp m n) ⟨⟨0, by norm_num⟩, Finset.mem_univ _⟩

theorem isReal_expK (m n : Fin 2304) : IsReal (expK x wt bt wp bp m n) :=
  ((isReal_scoreK x wt bt wp bp hx hwt hbt hwp hbp m n).sub (isReal_maxK x wt bt wp bp hx hwt hbt hwp hbp n)).exp

/-- The weights' sum is a nonzero real. -/
theorem sumK_real (n : Fin 2304) : ∃ L : ℝ, L ≠ 0 ∧ sumK x wt bt wp bp n = (L : EReal) := by
  haveI : Nonempty (Fin 2304) := ⟨⟨0, by norm_num⟩⟩
  exact sum_exp_real fun m => (isReal_scoreK x wt bt wp bp hx hwt hbt hwp hbp m n).sub (isReal_maxK x wt bt wp bp hx hwt hbt hwp hbp n)

include hwg hbg

/-- The attended value: the sum scaled afterwards is the sum of the scaled weights. -/
theorem attnK_eq_attnR (c : Fin 256) (n : Fin 2304) :
    attnK x wg bg wt bt wp bp c n = attnR x wg bg wt bt wp bp n c := by
  obtain ⟨L, hL0, hL⟩ := sumK_real x wt bt wp bp hx hwt hbt hwp hbp n
  unfold attnK attnR
  rw [sumR_eq, hL, Ideal.div_coe hL0, one_mul]
  rw [sum_mul_real (fun m => (isReal_gee x wg bg hx hwg hbg c m).mul (isReal_expK x wt bt wp bp hx hwt hbt hwp hbp m n)) (isReal_coe _)]
  refine Finset.sum_congr rfl fun m _ => ?_
  rw [expR_eq, Ideal.div_coe hL0]
  ac_rfl

theorem isReal_attnR (c : Fin 256) (n : Fin 2304) : IsReal (attnR x wg bg wt bt wp bp n c) := by
  rw [← attnK_eq_attnR x wg bg wt bt wp bp hx hwg hbg hwt hbt hwp hbp c n]
  obtain ⟨L, hL0, hL⟩ := sumK_real x wt bt wp bp hx hwt hbt hwp hbp n
  unfold attnK
  rw [hL, Ideal.div_coe hL0, one_mul]
  exact (IsReal.sum _ fun m _ => (isReal_gee x wg bg hx hwg hbg c m).mul (isReal_expK x wt bt wp bp hx hwt hbt hwp hbp m n)).mul (isReal_coe _)

/-- The two arrangements agree. -/
theorem outK_eq_outR (hwo : ∀ c, IsReal (wo c)) (hbo : ∀ c, IsReal (bo c)) (hinv : ∀ c, IsReal (inv c))
    (hshift : ∀ c, IsReal (shift c)) (c : Fin 256) (n : Fin 2304) :
    outK x wg bg wt bt wp bp (fun c => wo c * inv c) (fun c => bo c * inv c + shift c) c n
      = outR x wg bg wt bt wp bp wo bo inv shift c n := by
  show attnK x wg bg wt bt wp bp c n * (wo c * inv c) + (bo c * inv c + shift c) + x c n = _
  unfold outR
  rw [attnK_eq_attnR x wg bg wt bt wp bp hx hwg hbg hwt hbt hwp hbp c n,
    affine_fold (isReal_attnR x wg bg wt bt wp bp hx hwg hbg hwt hbt hwp hbp c n) (hwo c) (hbo c) (hinv c) (hshift c)]

end

end Cert.Attn

end
-- ==== Proof.LibColumnSlice.lean ====
/-
  One column of a matrix, cut out and repeated along the lanes.

  Column `k` of an [a,w] array, cut out as an [a,1] slice by a unit-stride slice at offsets (0,k) and then broadcast
  to [a,b], reads at (r,q) the array's entry (r,k), whatever the lane `q`: how a kernel applies a per-row
  quantity kept as one column of a packed array.
-/
import Idealize.ShloMosaic.Lib.Pipeline.Value
import Idealize.ShloMosaic.Lib.ValueIdx

noncomputable section

namespace Cert.Lib.ColumnSlice

open Idealize.ShloMosaic Idealize.ShloMosaic.ValueIdx

/-- Column `k` of an [a,w] array, cut out as an [a,1] slice and repeated along `b` lanes, reads at (r,q) the
    array's entry (r,k). -/
theorem colBroadcast_apply {α : Type} {a b w : ℕ} (k : ℕ) (hk : k < w) (X : (⟨2, ![a, w]⟩ : Shape).Idx → α)
    (hs : (⟨2, ![a, w]⟩ : Shape).Slices ![0, k] ⟨2, ![a, 1]⟩) (hb : (⟨2, ![a, 1]⟩ : Shape).Broadcasts ⟨2, ![a, b]⟩)
    (r : Fin a) (q : Fin b) :
    broadcastTo ⟨2, ![a, b]⟩ (extractStridedSlice ⟨2, ![a, 1]⟩ ![0, k] X hs) hb (ix2 r q) = X (ix2 r ⟨k, hk⟩) := by
  refine (broadcastTo_apply _ hb (ix2 r q) (ix2 r (0 : Fin 1)) fun ax => ?_).trans
    (extractStridedSlice_apply _ X hs (ix2 r (0 : Fin 1)) (ix2 r ⟨k, hk⟩) fun ax => ?_)
  · match ax with
    | ⟨0, _⟩ =>
      show r.val = if a = 1 then 0 else r.val
      split
      · have := r.isLt; omega
      · rfl
    | ⟨1, _⟩ => show 0 = if (1 : ℕ) = 1 then 0 else q.val; rw [if_pos rfl]
  · match ax with
    | ⟨0, _⟩ => show r.val = 0 + r.val; omega
    | ⟨1, _⟩ => show k = k + 0; omega

end Cert.Lib.ColumnSlice

end
-- ==== Proof.KernelIdealTile.lean ====
/-
  One output tile of the kernel, element by element, over the extended reals.

  The body's arithmetic on a tile of 384 query positions: the scores of all 2304 key positions against the tile's
  queries are a product of the key projection's transpose with the query slab; each column's maximum is taken,
  the exponentials of the scores less it are summed down the column, the value projection is multiplied by the
  exponentials, each column is scaled by the reciprocal of its sum, and per channel a scale and an offset (columns
  6 and 7 of the packed array) are applied before the input's own tile is added. The projections are the input
  block scaled and shifted per channel by columns 0–5. Each step is read here at an index.
-/
import proofs.«110668_j27084063769111_2_alg».proof.Proof.KernelIdealPayloads
import Idealize.ShloMosaic.Lib.ValueIdx
import Idealize.ShloMosaic.Lib.ValueLayout
import Idealize.ShloMosaic.Lib.Pipeline.Value
import Idealize.ShloMosaic.PureOps.Ideal.Laws
import proofs.«110668_j27084063769111_2_alg».proof.Proof.AttnConsts
import proofs.«110668_j27084063769111_2_alg».proof.Proof.AttnSpec
import proofs.«110668_j27084063769111_2_alg».proof.Proof.LibColumnSlice

set_option maxRecDepth 16384

noncomputable section

namespace Cert.KernelIdeal.Hand

open Cert.KernelIdeal Cert.KernelIdeal.Gen
open Idealize.ShloMosaic Idealize.ShloMosaic.TcCoe Idealize.ShloMosaic.ValueIdx

open Cert.Attn.Consts Cert.Lib.ColumnSlice

/-! ## Layout steps -/

/-- The tile's column `j` is column `384·q + j` of the batch. -/
def col (i : grid0.Coords) (j : Fin 384) : Fin 2304 := ⟨384 * (i 1).val + j.val, by
  have h : (i 1).val < 6 := (i 1).isLt
  have := j.isLt; omega⟩

theorem slab_apply (i : grid0.Coords) (xs0 : Vec Ideal S256x2304 .bf16) (c : Fin 256) (j : Fin 384) :
    slab i xs0 (ix2 c j) = xs0 (ix2 c (col i j)) := by
  unfold slab
  show xs0 _ = xs0 _
  refine congrArg xs0 (funext fun a => Fin.ext ?_)
  match a with
  | ⟨0, _⟩ =>
    show (k0_off1 i) 0 + 1 * c.val = c.val
    rw [k0_off1_eq i]; show 0 + 1 * c.val = c.val; omega
  | ⟨1, _⟩ =>
    show (k0_off1 i) 1 + 1 * j.val = 384 * (i 1).val + j.val
    rw [k0_off1_eq i]; show 384 * (i 1).val + 1 * j.val = 384 * (i 1).val + j.val; omega

theorem ownTile_apply (i : grid0.Coords) (x0 : Vec Ideal S1x256x2304 .f32) (u : Fin 1) (c : Fin 256) (j : Fin 384) :
    ownTile i x0 (ix3 u c j) = x0 (ix3 u c (col i j)) := by
  unfold ownTile
  show x0 _ = x0 _
  refine congrArg x0 (funext fun a => Fin.ext ?_)
  match a with
  | ⟨0, _⟩ =>
    show (k0_off2 i) 0 + 1 * u.val = u.val
    rw [k0_off2_eq i]; show 0 + 1 * u.val = u.val; omega
  | ⟨1, _⟩ =>
    show (k0_off2 i) 1 + 1 * c.val = c.val
    rw [k0_off2_eq i]; show 0 + 1 * c.val = c.val; omega
  | ⟨2, _⟩ =>
    show (k0_off2 i) 2 + 1 * j.val = 384 * (i 1).val + j.val
    rw [k0_off2_eq i]; show 384 * (i 1).val + 1 * j.val = 384 * (i 1).val + j.val; omega

/-! ## The projections -/

theorem pay5_apply (x0 : Vec Ideal S1x256x2304 .f32) (x1 : Vec Ideal S256x8 .f32) (c : Fin 256) (n : Fin 2304) :
    k0_pay5 (F := Ideal) x0 x1 (ix2 c n) = x0 (ix3 (0 : Fin 1) c n) * x1 (ix2 c ⟨2, by decide⟩) + x1 (ix2 c ⟨3, by decide⟩) := by
  unfold k0_pay5 k0_pay2 k0_pay3
  simp only [shapeCast_self]
  show shapeCast S256x2304 x0 _ (ix2 c n) * broadcastTo S256x2304 _ _ (ix2 c n) + broadcastTo S256x2304 _ _ (ix2 c n) = _
  rw [shapeCast_1ab_ab_apply, colBroadcast_apply 2 (by decide), colBroadcast_apply 3 (by decide)]

theorem pay6_apply (x0 : Vec Ideal S1x256x2304 .f32) (x1 : Vec Ideal S256x8 .f32) (c : Fin 256) (n : Fin 2304) :
    k0_pay6 (F := Ideal) x0 x1 (ix2 c n) = x0 (ix3 (0 : Fin 1) c n) * x1 (ix2 c ⟨4, by decide⟩) + x1 (ix2 c ⟨5, by decide⟩) := by
  unfold k0_pay6 k0_pay2 k0_pay3
  simp only [shapeCast_self]
  show shapeCast S256x2304 x0 _ (ix2 c n) * broadcastTo S256x2304 _ _ (ix2 c n) + broadcastTo S256x2304 _ _ (ix2 c n) = _
  rw [shapeCast_1ab_ab_apply, colBroadcast_apply 4 (by decide), colBroadcast_apply 5 (by decide)]

theorem pay4_apply (x0 : Vec Ideal S1x256x2304 .f32) (x1 : Vec Ideal S256x8 .f32) (c : Fin 256) (n : Fin 2304) :
    k0_pay4 (F := Ideal) x0 x1 (ix2 c n) = x0 (ix3 (0 : Fin 1) c n) * x1 (ix2 c ⟨0, by decide⟩) + x1 (ix2 c ⟨1, by decide⟩) := by
  unfold k0_pay4 k0_pay2 k0_pay3
  simp only [shapeCast_self]
  show shapeCast S256x2304 x0 _ (ix2 c n) * broadcastTo S256x2304 _ _ (ix2 c n) + broadcastTo S256x2304 _ _ (ix2 c n) = _
  rw [shapeCast_1ab_ab_apply, colBroadcast_apply 0 (by decide), colBroadcast_apply 1 (by decide)]

/-! ## The two matrix products -/

theorem d1_lhs_0 (i : S2304x384.Idx) (q : dot_S256x2304_S256x384_S2304x384_0_0_1_1_n_n.contr.Idx) :
    (dot_S256x2304_S256x384_S2304x384_0_0_1_1_n_n.lhsIdx i q 0).val = (q ⟨0, by decide⟩).val :=
  dot_S256x2304_S256x384_S2304x384_0_0_1_1_n_n.lhsIdx_val_of_single rfl i q
theorem d1_lhs_1 (i : S2304x384.Idx) (q : dot_S256x2304_S256x384_S2304x384_0_0_1_1_n_n.contr.Idx) :
    (dot_S256x2304_S256x384_S2304x384_0_0_1_1_n_n.lhsIdx i q 1).val = (i 0).val := by
  unfold DotDims.lhsIdx
  rw [dif_neg (show ¬(1 : Fin S256x2304.rank) ∈ dot_S256x2304_S256x384_S2304x384_0_0_1_1_n_n.lhsBatch by decide), dif_pos (show (1 : Fin S256x2304.rank) ∈ dot_S256x2304_S256x384_S2304x384_0_0_1_1_n_n.lhsNonContracting by decide)]
  rfl
theorem d1_rhs_0 (i : S2304x384.Idx) (q : dot_S256x2304_S256x384_S2304x384_0_0_1_1_n_n.contr.Idx) :
    (dot_S256x2304_S256x384_S2304x384_0_0_1_1_n_n.rhsIdx i q 0).val = (q ⟨0, by decide⟩).val :=
  dot_S256x2304_S256x384_S2304x384_0_0_1_1_n_n.rhsIdx_val_of_single rfl i q
theorem d1_rhs_1 (i : S2304x384.Idx) (q : dot_S256x2304_S256x384_S2304x384_0_0_1_1_n_n.contr.Idx) :
    (dot_S256x2304_S256x384_S2304x384_0_0_1_1_n_n.rhsIdx i q 1).val = (i 1).val := by
  unfold DotDims.rhsIdx
  rw [dif_neg (show ¬(1 : Fin S256x384.rank) ∈ dot_S256x2304_S256x384_S2304x384_0_0_1_1_n_n.rhsBatch by decide), dif_pos (show (1 : Fin S256x384.rank) ∈ dot_S256x2304_S256x384_S2304x384_0_0_1_1_n_n.rhsNonContracting by decide)]
  rfl

/-- The score product: the key projection's transpose times the query slab, into zero. -/
theorem scores_apply (v7 : FVec Ideal S256x2304 .bf16) (v6 : FVec Ideal S256x384 .bf16) (m : Fin 2304) (j : Fin 384) :
    matmul (F := Ideal) dot_S256x2304_S256x384_S2304x384_0_0_1_1_n_n none v7 v6 (constant (F := Ideal) S2304x384 .f32 0x00000000#32) (ix2 m j)
      = ∑ k : Fin 256, v7 (ix2 k m) * v6 (ix2 k j) := by
  simp only [matmul]
  rw [Ideal.matmul_constant_zero_apply, ← Equiv.sum_comp (ValueIdx.contrEquiv1 dot_S256x2304_S256x384_S2304x384_0_0_1_1_n_n 256 rfl rfl).symm]
  refine Finset.sum_congr rfl fun k _ => ?_
  have hk := ValueIdx.contrEquiv1_symm_val dot_S256x2304_S256x384_S2304x384_0_0_1_1_n_n 256 rfl rfl k
  have el : dot_S256x2304_S256x384_S2304x384_0_0_1_1_n_n.lhsIdx (ix2 m j) ((ValueIdx.contrEquiv1 dot_S256x2304_S256x384_S2304x384_0_0_1_1_n_n 256 rfl rfl).symm k) = ix2 k m := funext fun a => Fin.ext (by
    match a with
    | ⟨0, _⟩ => exact (d1_lhs_0 _ _).trans hk
    | ⟨1, _⟩ => exact d1_lhs_1 _ _)
  have er : dot_S256x2304_S256x384_S2304x384_0_0_1_1_n_n.rhsIdx (ix2 m j) ((ValueIdx.contrEquiv1 dot_S256x2304_S256x384_S2304x384_0_0_1_1_n_n 256 rfl rfl).symm k) = ix2 k j := funext fun a => Fin.ext (by
    match a with
    | ⟨0, _⟩ => exact (d1_rhs_0 _ _).trans hk
    | ⟨1, _⟩ => exact d1_rhs_1 _ _)
  rw [el, er]

theorem d2_lhs_0 (i : S256x384.Idx) (q : dot_S256x2304_S2304x384_S256x384_1_0_0_1_n_n.contr.Idx) :
    (dot_S256x2304_S2304x384_S256x384_1_0_0_1_n_n.lhsIdx i q 0).val = (i 0).val := by
  unfold DotDims.lhsIdx
  rw [dif_neg (show ¬(0 : Fin S256x2304.rank) ∈ dot_S256x2304_S2304x384_S256x384_1_0_0_1_n_n.lhsBatch by decide), dif_pos (show (0 : Fin S256x2304.rank) ∈ dot_S256x2304_S2304x384_S256x384_1_0_0_1_n_n.lhsNonContracting by decide)]
  rfl
theorem d2_lhs_1 (i : S256x384.Idx) (q : dot_S256x2304_S2304x384_S256x384_1_0_0_1_n_n.contr.Idx) :
    (dot_S256x2304_S2304x384_S256x384_1_0_0_1_n_n.lhsIdx i q 1).val = (q ⟨0, by decide⟩).val :=
  dot_S256x2304_S2304x384_S256x384_1_0_0_1_n_n.lhsIdx_val_of_single rfl i q
theorem d2_rhs_0 (i : S256x384.Idx) (q : dot_S256x2304_S2304x384_S256x384_1_0_0_1_n_n.contr.Idx) :
    (dot_S256x2304_S2304x384_S256x384_1_0_0_1_n_n.rhsIdx i q 0).val = (q ⟨0, by decide⟩).val :=
  dot_S256x2304_S2304x384_S256x384_1_0_0_1_n_n.rhsIdx_val_of_single rfl i q
theorem d2_rhs_1 (i : S256x384.Idx) (q : dot_S256x2304_S2304x384_S256x384_1_0_0_1_n_n.contr.Idx) :
    (dot_S256x2304_S2304x384_S256x384_1_0_0_1_n_n.rhsIdx i q 1).val = (i 1).val := by
  unfold DotDims.rhsIdx
  rw [dif_neg (show ¬(1 : Fin S2304x384.rank) ∈ dot_S256x2304_S2304x384_S256x384_1_0_0_1_n_n.rhsBatch by decide), dif_pos (show (1 : Fin S2304x384.rank) ∈ dot_S256x2304_S2304x384_S256x384_1_0_0_1_n_n.rhsNonContracting by decide)]
  rfl

/-- The value product: the value projection times the exponentials, into zero. -/
theorem values_apply (v8 : FVec Ideal S256x2304 .bf16) (v17 : FVec Ideal S2304x384 .bf16) (c : Fin 256) (j : Fin 384) :
    matmul (F := Ideal) dot_S256x2304_S2304x384_S256x384_1_0_0_1_n_n none v8 v17 (constant (F := Ideal) S256x384 .f32 0x00000000#32) (ix2 c j)
      = ∑ m : Fin 2304, v8 (ix2 c m) * v17 (ix2 m j) := by
  simp only [matmul]
  rw [Ideal.matmul_constant_zero_apply, ← Equiv.sum_comp (ValueIdx.contrEquiv1 dot_S256x2304_S2304x384_S256x384_1_0_0_1_n_n 2304 rfl rfl).symm]
  refine Finset.sum_congr rfl fun k _ => ?_
  have hk := ValueIdx.contrEquiv1_symm_val dot_S256x2304_S2304x384_S256x384_1_0_0_1_n_n 2304 rfl rfl k
  have el : dot_S256x2304_S2304x384_S256x384_1_0_0_1_n_n.lhsIdx (ix2 c j) ((ValueIdx.contrEquiv1 dot_S256x2304_S2304x384_S256x384_1_0_0_1_n_n 2304 rfl rfl).symm k) = ix2 c k := funext fun a => Fin.ext (by
    match a with
    | ⟨0, _⟩ => exact d2_lhs_0 _ _
    | ⟨1, _⟩ => exact (d2_lhs_1 _ _).trans hk)
  have er : dot_S256x2304_S2304x384_S256x384_1_0_0_1_n_n.rhsIdx (ix2 c j) ((ValueIdx.contrEquiv1 dot_S256x2304_S2304x384_S256x384_1_0_0_1_n_n 2304 rfl rfl).symm k) = ix2 k j := funext fun a => Fin.ext (by
    match a with
    | ⟨0, _⟩ => exact (d2_rhs_0 _ _).trans hk
    | ⟨1, _⟩ => exact d2_rhs_1 _ _)
  rw [el, er]

/-! ## The column reductions -/

/-- The maximum down column `j` of a [2304,384] array, from minus infinity. -/
theorem colMax_apply (v9 : FVec Ideal S2304x384 .f32) (hφ : FKind.Formats .f32)
    (hacc : (0xFF800000#32 : BitVec 32) = 0xFF800000#32) (j : Fin 384) :
    multiReduction (F := Ideal) .maximumf [0] S384 v9 0xFF800000#32 reduces_S2304x384_S384 hφ hacc (ix1 j)
      = (Finset.univ : Finset (Fin 2304)).fold max ⊥ (fun m => v9 (ix2 m j)) := by
  refine (Ideal.multiReduction_maximumf_single v9 0xFF800000#32 reduces_S2304x384_S384 hφ hacc (ix1 j)).trans ?_
  show Finset.fold max (Ideal.ofBits .f32 0xFF800000#32) _ _ = _
  rw [ofBits_neg_inf]
  refine congrArg (fun f => Finset.fold max ⊥ f (Finset.univ : Finset (Fin 2304))) (funext fun m => ?_)
  show v9 _ = v9 _
  refine congrArg v9 (funext fun a => Fin.ext ?_)
  match a with
  | ⟨0, _⟩ => rfl
  | ⟨1, _⟩ => rfl

/-- The sum down column `j`. -/
theorem colSum_apply (v14 : FVec Ideal S2304x384 .f32) (hφ : FKind.Formats .f32)
    (hacc : (0x00000000#32 : BitVec 32) = 0x00000000#32) (j : Fin 384) :
    multiReduction (F := Ideal) .add [0] S384 v14 0x00000000#32 reduces_S2304x384_S384 hφ hacc (ix1 j)
      = ∑ m : Fin 2304, v14 (ix2 m j) := by
  refine (Ideal.multiReduction_add_single v14 0x00000000#32 reduces_S2304x384_S384 hφ hacc (ix1 j)).trans ?_
  refine Finset.sum_congr rfl fun m _ => ?_
  refine congrArg v14 (funext fun a => Fin.ext ?_)
  match a with
  | ⟨0, _⟩ => rfl
  | ⟨1, _⟩ => rfl

/-! ## The tile's arithmetic in four stages -/

theorem exp_apply {s : Shape} {φ : FTy} (a : FVec Ideal s φ) (i : s.Idx) : exp a i = Ideal.exp (a i) := rfl

/-- The scores: the key projection's transpose times the query slab. -/
def stScores (v7 : FVec Ideal S256x2304 .bf16) (v6 : FVec Ideal S256x384 .bf16) : FVec Ideal S2304x384 .f32 :=
  matmul (F := Ideal) dot_S256x2304_S256x384_S2304x384_0_0_1_1_n_n none v7 v6 (constant (F := Ideal) S2304x384 .f32 0x00000000#32)
/-- The exponentials of the scores less their column maxima. -/
def stExp (sc : FVec Ideal S2304x384 .f32) : FVec Ideal S2304x384 .f32 :=
  exp (subf sc (broadcastTo S2304x384 (shapeCast S1x384 (multiReduction (F := Ideal) .maximumf [0] S384 sc 0xFF800000#32 reduces_S2304x384_S384 (.inl rfl) rfl) shapeCasts_S384_S1x384) broadcasts_S1x384_S2304x384))
/-- The value projection times the exponentials, each column scaled by the reciprocal of its sum. -/
def stAttend (v8 : FVec Ideal S256x2304 .bf16) (e : FVec Ideal S2304x384 .f32) : FVec Ideal S256x384 .f32 :=
  mulf (matmul (F := Ideal) dot_S256x2304_S2304x384_S256x384_1_0_0_1_n_n none v8 (truncf .bf16 e bitsLt_bf16_f32) (constant (F := Ideal) S256x384 .f32 0x00000000#32))
    (broadcastTo S256x384 (divf (broadcast S1x384 (Scalar.ofBits (F := Ideal) .f32 0x3F800000#32))
      (shapeCast S1x384 (multiReduction (F := Ideal) .add [0] S384 e 0x00000000#32 reduces_S2304x384_S384 (.inl rfl) rfl) shapeCasts_S384_S1x384)) broadcasts_S1x384_S256x384)
/-- The per-channel scale and offset (columns 6 and 7), then the input's own tile added. -/
def stFinish (y : FVec Ideal S256x384 .f32) (v23 : Vec Ideal S256x8 .f32) (v32 : Vec Ideal S1x256x384 .f32) : FVec Ideal S256x384 .f32 :=
  addf (addf (mulf y (broadcastTo S256x384 (extractStridedSlice S256x1 ![0, 6] (shapeCast S256x8 v23 shapeCasts_S256x8_S256x8) slices_S256x8_o0_6_S256x1) broadcasts_S256x1_S256x384))
    (broadcastTo S256x384 (extractStridedSlice S256x1 ![0, 7] (shapeCast S256x8 v23 shapeCasts_S256x8_S256x8) slices_S256x8_o0_7_S256x1) broadcasts_S256x1_S256x384))
    (shapeCast S256x384 v32 shapeCasts_S1x256x384_S256x384)

/-- The printed payload is the four stages composed. -/
theorem pay7_stages (v6 : Vec Ideal S256x384 .bf16) (v7 v8 : Vec Ideal S256x2304 .bf16) (v23 : Vec Ideal S256x8 .f32) (v32 : Vec Ideal S1x256x384 .f32) :
    k0_pay7 (F := Ideal) v6 v7 v8 v23 v32 = stFinish (stAttend v8 (stExp (stScores v7 v6))) v23 v32 := rfl

theorem stScores_apply (v7 : FVec Ideal S256x2304 .bf16) (v6 : FVec Ideal S256x384 .bf16) (m : Fin 2304) (j : Fin 384) :
    stScores v7 v6 (ix2 m j) = ∑ k : Fin 256, v7 (ix2 k m) * v6 (ix2 k j) := scores_apply v7 v6 m j

theorem stExp_apply (sc : FVec Ideal S2304x384 .f32) (m : Fin 2304) (j : Fin 384) :
    stExp sc (ix2 m j) = Ideal.exp (sc (ix2 m j) - (Finset.univ : Finset (Fin 2304)).fold max ⊥ (fun m' => sc (ix2 m' j))) := by
  unfold stExp
  show Ideal.exp (sc (ix2 m j) - broadcastTo S2304x384 _ _ (ix2 m j)) = _
  rw [broadcastTo_1b_ab_apply, shapeCast_a_1a_apply, colMax_apply]

theorem stAttend_apply (v8 : FVec Ideal S256x2304 .bf16) (e : FVec Ideal S2304x384 .f32) (c : Fin 256) (j : Fin 384) :
    stAttend v8 e (ix2 c j) = (∑ m : Fin 2304, v8 (ix2 c m) * e (ix2 m j)) * Ideal.div 1 (∑ m : Fin 2304, e (ix2 m j)) := by
  unfold stAttend
  show matmul (F := Ideal) _ none v8 _ _ (ix2 c j) * broadcastTo S256x384 _ _ (ix2 c j) = _
  rw [values_apply, broadcastTo_1b_ab_apply]
  show _ * Ideal.div (Ideal.ofBits .f32 0x3F800000#32) (shapeCast S1x384 _ _ (ix2 (0 : Fin 1) j)) = _
  rw [ofBits_one, shapeCast_a_1a_apply, colSum_apply]
  rfl

theorem stFinish_apply (y : FVec Ideal S256x384 .f32) (v23 : Vec Ideal S256x8 .f32) (v32 : Vec Ideal S1x256x384 .f32) (c : Fin 256) (j : Fin 384) :
    stFinish y v23 v32 (ix2 c j) = y (ix2 c j) * v23 (ix2 c ⟨6, by decide⟩) + v23 (ix2 c ⟨7, by decide⟩) + v32 (ix3 (0 : Fin 1) c j) := by
  unfold stFinish
  simp only [shapeCast_self]
  show y (ix2 c j) * broadcastTo S256x384 _ _ (ix2 c j) + broadcastTo S256x384 _ _ (ix2 c j) + shapeCast S256x384 v32 _ (ix2 c j) = _
  rw [colBroadcast_apply 6 (by decide), colBroadcast_apply 7 (by decide), shapeCast_1ab_ab_apply]

/-! ## The tile is the kernel's arrangement of the block -/

/-- Column `k` of the packed per-channel array. -/
def colOf (x1 : Vec Ideal S256x8 .f32) (k : ℕ) (hk : k < 8) (c : Fin 256) : EReal := x1 (ix2 c ⟨k, hk⟩)

/-- The tile formula at channel `c` and tile column `j` is the kernel's arrangement of one batch's block, at
    position `384·q + j`: the batch's input is the input block, the eight per-channel vectors the packed columns. -/
theorem tileOf_apply (i : grid0.Coords) (x0 : Vec Ideal S1x256x2304 .f32) (x1 : Vec Ideal S256x8 .f32) (c : Fin 256) (j : Fin 384) :
    tileOf (F := Ideal) i x0 x1 (k0_pay5 x0 x1) (k0_pay6 x0 x1) (k0_pay4 x0 x1) (ix3 (0 : Fin 1) c j)
      = Cert.Attn.outK (fun c n => x0 (ix3 (0 : Fin 1) c n)) (colOf x1 0 (by decide)) (colOf x1 1 (by decide)) (colOf x1 2 (by decide))
          (colOf x1 3 (by decide)) (colOf x1 4 (by decide)) (colOf x1 5 (by decide)) (colOf x1 6 (by decide)) (colOf x1 7 (by decide)) c (col i j) := by
  unfold tileOf k0_pay1
  rw [shapeCast_ab_1ab_apply, pay7_stages, stFinish_apply, stAttend_apply]
  simp only [stExp_apply, stScores_apply, slab_apply, ownTile_apply, pay5_apply, pay6_apply, pay4_apply]
  rfl

end Cert.KernelIdeal.Hand

end
-- ==== Proof.KernelIdealArray.lean ====
/-
  From the tiles to the whole result array.

  Grid point (b, q) writes back the tile of batch `b` at columns 384·q … 384·q + 383, and the 8 × 6 tiles fill
  the [8,256,2304] result array. The input window's block at the point is batch `b` of the reshaped input, the
  packed columns' block is the whole packed array. So the array ends holding, at (b, c, n), the kernel's
  arrangement of batch `b`'s block at channel `c` and position `n`; the host line after the region reshapes it.
-/
import proofs.«110668_j27084063769111_2_alg».proof.Proof.KernelIdealRun
import proofs.«110668_j27084063769111_2_alg».proof.Proof.KernelIdealTile
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx

open Idealize.SL Idealize.SL.Sem
open Idealize.ShloMosaic.Pipeline (Dat)

variable (m : (ℓ : Loc nD τ sig) → Buf (Elt Ideal) ℓ) (ρ : Dev nD → PrngReg)

/-! ## The index maps over the grid -/

/-- The input window follows the output window's batch and sits at zero on the other axes; the packed columns'
    window never moves; the output window's channel block is zero and its indices stay in range. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (1 : Fin 3) = 0 ∧ win0_2.index t (2 : Fin 3) = (grid0.coords t 1).val
    ∧ win0_2.index t (0 : Fin 3) < 8 ∧ win0_2.index t (2 : Fin 3) < 6 :=
  (by decide +kernel : ∀ t : Fin grid0.N, _)

/-- Every (batch, tile) pair is some point's. -/
theorem idx_onto : ∀ (b : Fin 8) (q : Fin 6), ∃ t : Fin cfg0.N, win0_2.index t = ![b.val, 0, q.val] :=
  (by decide +kernel : ∀ (b : Fin 8) (q : Fin 6), ∃ t : Fin grid0.N, win0_2.index t = ![b.val, 0, q.val])

/-- The batch of point `t`. -/
def bOf (t : Fin cfg0.N) : Fin 8 := ⟨win0_2.index t (0 : Fin 3), (idx_facts t).2.2.2.2.2.2.2.1⟩

/-! ## The blocks, read off the arrays the region finds -/

theorem iblk0_apply (c : Dev nD) (t : Fin cfg0.N) (ch : Fin 256) (n : Fin 2304) :
    iblk m c 0 t (ix3 (0 : Fin 1) ch n) = V m c main_v0 (ix3 (bOf t) ch n) := by
  obtain ⟨e0, e1, e2, -⟩ := idx_facts t
  show V m c main_v0 (((cfg0.win 0).blk t).view.emb (ix3 (0 : Fin 1) ch n)) = V m c main_v0 (ix3 (bOf t) ch n)
  refine congrArg (V m c main_v0) (funext fun a => Fin.ext ?_)
  match a with
  | ⟨0, _⟩ => show win0_0.index t (0 : Fin 3) * 1 + 1 * 0 = win0_2.index t (0 : Fin 3); omega
  | ⟨1, _⟩ => show win0_0.index t (1 : Fin 3) * 256 + 1 * ch.val = ch.val; omega
  | ⟨2, _⟩ => show win0_0.index t (2 : Fin 3) * 2304 + 1 * n.val = n.val; omega

theorem iblk1_apply (c : Dev nD) (t : Fin cfg0.N) (ch : Fin 256) (k : Fin 8) :
    iblk m c 1 t (ix2 ch k) = V m c main_v18 (ix2 ch k) := by
  obtain ⟨-, -, -, e3, e4, -⟩ := idx_facts t
  show V m c main_v18 (((cfg0.win 1).blk t).view.emb (ix2 ch k)) = V m c main_v18 (ix2 ch k)
  refine congrArg (V m c main_v18) (funext fun a => Fin.ext ?_)
  match a with
  | ⟨0, _⟩ => show win0_1.index t (0 : Fin 2) * 256 + 1 * ch.val = ch.val; omega
  | ⟨1, _⟩ => show win0_1.index t (1 : Fin 2) * 8 + 1 * k.val = k.val; omega

/-- Where the output's block puts its element (0, ch, j): batch `b`, channel `ch`, column 384·q + j. -/
theorem emb2 (t : Fin cfg0.N) (ch : Fin 256) (j : Fin 384) :
    ((cfg0.win 2).blk t).view.emb (ix3 (0 : Fin 1) ch j) = ix3 (bOf t) ch (col (grid0.coords t) j) := by
  obtain ⟨-, -, -, -, -, e5, e6, -⟩ := idx_facts t
  funext a; apply Fin.ext
  match a with
  | ⟨0, _⟩ => show win0_2.index t (0 : Fin 3) * 1 + 1 * 0 = win0_2.index t (0 : Fin 3); omega
  | ⟨1, _⟩ => show win0_2.index t (1 : Fin 3) * 256 + 1 * ch.val = ch.val; omega
  | ⟨2, _⟩ => show win0_2.index t (2 : Fin 3) * 384 + 1 * j.val = 384 * (grid0.coords t 1).val + j.val; omega

/-! ## The whole array -/

/-- The coordinates of an index of the result array. -/
def c0 (i : S8x256x2304.Idx) : Fin 8 := ⟨(i 0).val, (i 0).isLt⟩
def c1 (i : S8x256x2304.Idx) : Fin 256 := ⟨(i 1).val, (i 1).isLt⟩
def c2 (i : S8x256x2304.Idx) : Fin 2304 := ⟨(i 2).val, (i 2).isLt⟩

/-- The result array as one function of the two arrays the region finds: at (b, c, n) the kernel's arrangement of
    batch `b`'s block. -/
def G19 (c : Dev nD) : S8x256x2304.Idx → EReal := fun i =>
  Cert.Attn.outK (fun ch n => V m c main_v0 (ix3 (c0 i) ch n)) (colOf (V m c main_v18) 0 (by decide)) (colOf (V m c main_v18) 1 (by decide))
    (colOf (V m c main_v18) 2 (by decide)) (colOf (V m c main_v18) 3 (by decide)) (colOf (V m c main_v18) 4 (by decide))
    (colOf (V m c main_v18) 5 (by decide)) (colOf (V m c main_v18) 6 (by decide)) (colOf (V m c main_v18) 7 (by decide)) (c1 i) (c2 i)

theorem colOf_iblk (c : Dev nD) (t : Fin cfg0.N) (k : ℕ) (hk : k < 8) :
    colOf (iblk m c 1 t) k hk = colOf (V m c main_v18) k hk := funext fun ch => iblk1_apply m c t ch ⟨k, hk⟩

/-- What point `t` writes back is block `t` of that function. -/
theorem flushed2_eq (c : Dev nD) (t : Fin cfg0.N) :
    (dats m 0 c).flushed 2 t = ((cfg0.win 2).blk t).view.read (Elt Ideal) (G19 m c) := by
  show (cfg0.win 2).cut (grid0.coords t) ((dats m 0 c).after 2 t) = _
  rw [after0_2]
  funext y
  obtain ⟨u, ch, j, rfl⟩ : ∃ (u : Fin 1) (ch : Fin 256) (j : Fin 384), y = ix3 u ch j := ⟨y 0, y 1, y 2, eq_ix3 y⟩
  obtain rfl : u = 0 := Subsingleton.elim _ _
  show tileOf (grid0.coords t) (iblk m c 0 t) (iblk m c 1 t) _ _ _ (ix3 (0 : Fin 1) ch j)
    = G19 m c (((cfg0.win 2).blk t).view.emb (ix3 (0 : Fin 1) ch j))
  rw [tileOf_apply, emb2]
  unfold G19
  rw [show (fun ch' n => iblk m c 0 t (ix3 (0 : Fin 1) ch' n)) = fun ch' n => V m c main_v0 (ix3 (bOf t) ch' n) from
    funext fun ch' => funext fun n => iblk0_apply m c t ch' n]
  simp only [colOf_iblk]
  rfl

/-- Every index of the result array is in some point's block. -/
theorem cover2 (i : S8x256x2304.Idx) : ∃ t : Fin cfg0.N, (cfg0.win 2).flush t = true ∧ i ∈ ((cfg0.win 2).blk t).view.set := by
  have h0 : (i 0).val < 8 := (i 0).isLt
  have h1 : (i 1).val < 256 := (i 1).isLt
  have h2 : (i 2).val < 2304 := (i 2).isLt
  obtain ⟨t, ht⟩ := idx_onto ⟨(i 0).val, h0⟩ ⟨(i 2).val / 384, by omega⟩
  have q0 : win0_2.index t (0 : Fin 3) = (i 0).val := congrFun ht 0
  have q1 : win0_2.index t (1 : Fin 3) = 0 := congrFun ht 1
  have q2 : win0_2.index t (2 : Fin 3) = (i 2).val / 384 := congrFun ht 2
  refine ⟨t, flush0_2 t, ?_⟩
  show i ∈ ((View.whole main_v19).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 384 ≤ (i 2).val ∧ (i 2).val < win0_2.index t (2 : Fin 3) * 384 + 384; omega

/-- The result array after the region. -/
theorem final19 (c : Dev nD) : (dats m 0 c).arrAt 2 cfg0.N = G19 m c :=
  (dats m 0 c).arrAt_eq_of_cover 2 (G19 m c) (fun t _ => flushed2_eq m c t) (cover2)

/-! ## The arrays the region finds, and the program's result -/

/-- The region's input array is the argument reshaped. -/
theorem V_main_v0 (c : Dev nD) :
    (V m c main_v0 : S8x256x2304.Idx → EReal) = shapeCast S8x256x2304 (m ((c : Thread nD τ).loc main_arg0)) shapeCasts_S8x256x48x48_S8x256x2304 := by
  show StableHlo.after hostOps0 (fun b => m (c, b)) (Proc.devRef .tc main_v0) = _
  after_results
  rfl

/-- The program's result: the result array reshaped. -/
theorem result_tail (c : Dev nD) :
    (Pipeline.afterTail₀ cfgs (dats m) 0 (V0 m) [hostOps1] c main_v20 : S8x256x48x48.Idx → EReal)
      = shapeCast S8x256x48x48 (G19 m c) shapeCasts_S8x256x2304_S8x256x48x48 := by
  unfold Pipeline.afterTail₀
  show StableHlo.after hostOps1 _ (Proc.devRef .tc main_v20) = _
  after_results
  rw [(Pipeline.withArrays_arr spec0 launch0.win.arr_inj c _ _ 2).trans (final19 m c)]
  rfl

end Cert.KernelIdeal.Hand

end
-- ==== Proof.LibBroadcastInDim.lean ====
/-
  Host broadcasts of a per-row and of a per-lane quantity, read at an index. A vector `[a]` of per-row numbers is
  first given a unit lane axis (`[a, 1]`) and then repeated along the lanes (`[a, c]`): entry `(r, q)` of the result is
  entry `r` of the vector. A vector `[c]` of per-lane numbers is first given a unit row axis (`[1, c]`) and then repeated
  along the rows: entry `(r, q)` of the result is entry `q` of the vector. A scalar broadcast to any shape reads the
  scalar everywhere.
-/
import Idealize.ShloMosaic.Lib.Pipeline.Value
import Idealize.ShloMosaic.Lib.ValueIdx

noncomputable section

namespace Cert.Lib.BroadcastInDim

open Idealize.ShloMosaic Idealize.ShloMosaic.ValueIdx

variable {α : Type}

/-- A per-row vector `[a]` broadcast to `[a, 1]` and then to `[a, c]` reads, at `(r, q)`, the vector's entry `r`. -/
theorem perRow_apply {a c : ℕ} (d : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, c]⟩ ![0, 1]) (r : Fin a) (q : Fin c) :
    broadcastInDim ⟨2, ![a, c]⟩ ![0, 1] h2 (broadcastInDim ⟨2, ![a, 1]⟩ ![0] h1 d) (ix2 r q) = d (ix1 r) := by
  refine (broadcastInDim_apply _ h2 _ (ix2 r q) (ix2 r (0 : Fin 1)) fun ax => ?_).trans
    (broadcastInDim_apply _ h1 d (ix2 r (0 : Fin 1)) (ix1 r) fun ax => ?_)
  · match ax with
    | ⟨0, _⟩ =>
      show r.val = if a = 1 then 0 else r.val
      split
      · have := r.isLt; omega
      · rfl
    | ⟨1, _⟩ => show 0 = if (1 : ℕ) = 1 then 0 else q.val; rw [if_pos rfl]
  · match ax with
    | ⟨0, _⟩ =>
      show r.val = if a = 1 then 0 else r.val
      split
      · have := r.isLt; omega
      · rfl

/-- A per-lane vector `[c]` broadcast to `[1, c]` and then to `[a, c]` reads, at `(r, q)`, the vector's entry `q`. -/
theorem perLane_apply {a c : ℕ} (b : (⟨1, ![c]⟩ : Shape).Idx → α)
    (h1 : (⟨1, ![c]⟩ : Shape).BroadcastsInDim ⟨2, ![1, c]⟩ ![1])
    (h2 : (⟨2, ![1, c]⟩ : Shape).BroadcastsInDim ⟨2, ![a, c]⟩ ![0, 1]) (r : Fin a) (q : Fin c) :
    broadcastInDim ⟨2, ![a, c]⟩ ![0, 1] h2 (broadcastInDim ⟨2, ![1, c]⟩ ![1] h1 b) (ix2 r q) = b (ix1 q) := by
  refine (broadcastInDim_apply _ h2 _ (ix2 r q) (ix2 (0 : Fin 1) q) fun ax => ?_).trans
    (broadcastInDim_apply _ h1 b (ix2 (0 : Fin 1) q) (ix1 q) fun ax => ?_)
  · match ax with
    | ⟨0, _⟩ => show 0 = if (1 : ℕ) = 1 then 0 else r.val; rw [if_pos rfl]
    | ⟨1, _⟩ =>
      show q.val = if c = 1 then 0 else q.val
      split
      · have := q.isLt; omega
      · rfl
  · match ax with
    | ⟨0, _⟩ =>
      show q.val = if c = 1 then 0 else q.val
      split
      · have := q.isLt; omega
      · rfl

/-- A scalar broadcast to any shape reads the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply _ h x i ix0 fun ax => ax.elim0

end Cert.Lib.BroadcastInDim

end
-- ==== Proof.KernelIdealPacked.lean ====
/-
  The packed per-channel array, column by column.

  The host lines before the region compute, per channel, the batch normalisation's scale
  `inv = gamma · rsqrt(var + eps)`, the folded output weight `w_out · inv` and the folded offset
  `b_out · inv + (beta − mean · inv)`, and pack eight per-channel vectors as the columns of one [256,8] array: the six
  projection weights and biases, then the two folded ones. Read at (channel, column) the array is that column's
  vector at the channel.
-/
import proofs.«110668_j27084063769111_2_alg».proof.Proof.KernelIdealArray
import proofs.«110668_j27084063769111_2_alg».proof.Proof.LibBroadcastInDim

set_option maxRecDepth 16384

noncomputable section

namespace Cert.KernelIdeal.Hand

open Cert.KernelIdeal Cert.KernelIdeal.Gen
open Idealize.ShloMosaic Idealize.ShloMosaic.TcCoe Idealize.ShloMosaic.ValueIdx

open Idealize.SL Idealize.SL.Sem

/-- The scale, folded weight and folded offset as the host lines compute them. -/
def hInv (a9 a12 : FVec Ideal S256 .f32) : FVec Ideal S256 .f32 :=
  mulf a9 (Host.rsqrt (F := Ideal) (addf a12 (broadcastInDim S256 ![] bcast_S_S256 (constant (F := Ideal) S_ .f32 0x3727C5AC#32))))
def hWeff (a7 a9 a12 : FVec Ideal S256 .f32) : FVec Ideal S256 .f32 := mulf a7 (hInv a9 a12)
def hBeff (a8 a9 a10 a11 a12 : FVec Ideal S256 .f32) : FVec Ideal S256 .f32 :=
  addf (mulf a8 (hInv a9 a12)) (subf a10 (mulf a11 (hInv a9 a12)))

/-- The eight columns' vectors. -/
def pvec (a1 a2 a3 a4 a5 a6 a7 a8 a9 a10 a11 a12 : FVec Ideal S256 .f32) : Fin 8 → FVec Ideal S256 .f32 :=
  ![a1, a2, a3, a4, a5, a6, hWeff a7 a9 a12, hBeff a8 a9 a10 a11 a12]

/-- The packed array: the eight vectors as [256,1] columns, side by side. -/
def packed (a1 a2 a3 a4 a5 a6 a7 a8 a9 a10 a11 a12 : FVec Ideal S256 .f32) : S256x8.Idx → EReal :=
  concatenate S256x8 1 (List.ofFn fun n : Fin 8 => (⟨S256x1, broadcastInDim S256x1 ![0] bcast_S256_S256x1_0 (pvec a1 a2 a3 a4 a5 a6 a7 a8 a9 a10 a11 a12 n)⟩ : (s : Shape) × (s.Idx → EReal)))
    (by exact concatenates_S256x1_S256x1_S256x1_S256x1_S256x1_S256x1_S256x1_S256x1_S256x8_d1)

theorem packed_apply (a1 a2 a3 a4 a5 a6 a7 a8 a9 a10 a11 a12 : FVec Ideal S256 .f32) (ch : Fin 256) (k : Fin 8) :
    packed a1 a2 a3 a4 a5 a6 a7 a8 a9 a10 a11 a12 (ix2 ch k) = pvec a1 a2 a3 a4 a5 a6 a7 a8 a9 a10 a11 a12 k (ix1 ch) := by
  unfold packed
  refine (concatenate_ofFn_unit_apply (t := S256x8) (s₁ := S256x1) (1 : Fin 2)
    (fun n : Fin 8 => broadcastInDim S256x1 ![0] bcast_S256_S256x1_0 (pvec a1 a2 a3 a4 a5 a6 a7 a8 a9 a10 a11 a12 n)) _ rfl rfl (ix2 ch k) k rfl
    (ix2 ch (0 : Fin 1)) (fun b hb => by
      match b, hb with
      | ⟨0, _⟩, _ => rfl
      | ⟨1, _⟩, hb => exact absurd rfl hb)).trans ?_
  refine broadcastInDim_apply _ bcast_S256_S256x1_0 _ (ix2 ch (0 : Fin 1)) (ix1 ch) fun a => ?_
  match a with
  | ⟨0, _⟩ => show ch.val = if (256 : ℕ) = 1 then 0 else ch.val; rw [if_neg (by decide)]

variable (m : (ℓ : Loc nD τ sig) → Buf (Elt Ideal) ℓ)

/-- The region finds the packed array of the argument vectors. -/
theorem V_main_v18 (c : Dev nD) :
    (V m c main_v18 : S256x8.Idx → EReal) = packed (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps0 (fun b => m (c, b)) (Proc.devRef .tc main_v18) = _
  after_results
  rfl

end Cert.KernelIdeal.Hand

end
-- ==== Proof.ReferenceValue.lean ====
/-
  What the reference computes, index by index.

  The reference's run is a chain of host operations; its generated read-at-an-index lemmas are composed here into
  closed forms at explicit coordinates: the three projections of the input (each channel scaled and shifted), the
  scores as a sum over channels, their maximum over the key positions, the exponentials and their sum, the
  normalised weights, the attended value as a sum over key positions, and the output projection, the batch
  normalisation and the residual — together the reference's arrangement of the block, for the batch, channel and
  position that the final reshape reads. The two reshapes between [8,256,48,48] and [8,256,2304] undo each other.
-/
import proofs.«110668_j27084063769111_2_alg».proof.Proof.Gen.ReferenceIdeal.Read
import proofs.«110668_j27084063769111_2_alg».proof.Proof.AttnSpec
import proofs.«110668_j27084063769111_2_alg».proof.Proof.AttnConsts
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Cert.Attn.Consts

abbrev A0 : Type := (⟨S8x256x48x48, .f32⟩ : BufTy).Contents (Elt Ideal)
abbrev A1 : Type := (⟨S256, .f32⟩ : BufTy).Contents (Elt Ideal)

/-- Batch `b`'s input at channel `c` and position `n`: the 48×48 positions row by row. -/
def X (x0 : A0) (b : Fin 8) (c : Fin 256) (n : Fin 2304) : EReal := x0 (idx_main_v6 (ix3 b c n))
/-- A per-channel vector at a channel. -/
def vec (v : A1) (c : Fin 256) : EReal := v (ix1 c)
/-- The batch normalisation's scale and offset per channel. -/
def invOf (x9 x12 : A1) (c : Fin 256) : EReal := x9 (ix1 c) * Ideal.rsqrt (x12 (ix1 c) + Ideal.ofBits .f32 0x3727C5AC#32)
def shiftOf (x9 x10 x11 x12 : A1) (c : Fin 256) : EReal := x10 (ix1 c) - x11 (ix1 c) * invOf x9 x12 c

/-- The channel of a [8,256,48,48] index. -/
def chOf (i : S8x256x48x48.Idx) : Fin 256 := ⟨(i 1).val, (i 1).isLt⟩

theorem chOf_v6 (b : Fin 8) (c : Fin 256) (n : Fin 2304) : chOf (idx_main_v6 (ix3 b c n)) = c := by
  apply Fin.ext
  show ((b.val * 256 + c.val) * 2304 + n.val) / 2304 % 256 = c.val
  have := b.isLt; have := c.isLt; have := n.isLt; omega

/-! ## A per-channel vector spread over the whole array -/

theorem bc_v1 (x1 : A1) (i : S8x256x48x48.Idx) : val_main_v1 (F := Ideal) x1 i = x1 (ix1 (chOf i)) := by
  rw [val_main_v1_apply, val_main_v0_apply]
  refine congrArg x1 (funext fun a => ?_)
  match a with
  | ⟨0, _⟩ => rfl

theorem bc_v4 (x2 : A1) (i : S8x256x48x48.Idx) : val_main_v4 (F := Ideal) x2 i = x2 (ix1 (chOf i)) := by
  rw [val_main_v4_apply, val_main_v3_apply]
  refine congrArg x2 (funext fun a => ?_)
  match a with
  | ⟨0, _⟩ => rfl

theorem bc_v9 (x3 : A1) (i : S8x256x48x48.Idx) : val_main_v9 (F := Ideal) x3 i = x3 (ix1 (chOf i)) := by
  rw [val_main_v9_apply, val_main_v8_apply]
  refine congrArg x3 (funext fun a => ?_)
  match a with
  | ⟨0, _⟩ => rfl

theorem bc_v12 (x4 : A1) (i : S8x256x48x48.Idx) : val_main_v12 (F := Ideal) x4 i = x4 (ix1 (chOf i)) := by
  rw [val_main_v12_apply, val_main_v11_apply]
  refine congrArg x4 (funext fun a => ?_)
  match a with
  | ⟨0, _⟩ => rfl

theorem bc_v17 (x5 : A1) (i : S8x256x48x48.Idx) : val_main_v17 (F := Ideal) x5 i = x5 (ix1 (chOf i)) := by
  rw [val_main_v17_apply, val_main_v16_apply]
  refine congrArg x5 (funext fun a => ?_)
  match a with
  | ⟨0, _⟩ => rfl

theorem bc_v20 (x6 : A1) (i : S8x256x48x48.Idx) : val_main_v20 (F := Ideal) x6 i = x6 (ix1 (chOf i)) := by
  rw [val_main_v20_apply, val_main_v19_apply]
  refine congrArg x6 (funext fun a => ?_)
  match a with
  | ⟨0, _⟩ => rfl

theorem bc_v39 (x7 : A1) (i : S8x256x48x48.Idx) : val_main_v39 (F := Ideal) x7 i = x7 (ix1 (chOf i)) := by
  rw [val_main_v39_apply, val_main_v38_apply]
  refine congrArg x7 (funext fun a => ?_)
  match a with
  | ⟨0, _⟩ => rfl

theorem bc_v42 (x8 : A1) (i : S8x256x48x48.Idx) : val_main_v42 (F := Ideal) x8 i = x8 (ix1 (chOf i)) := by
  rw [val_main_v42_apply, val_main_v41_apply]
  refine congrArg x8 (funext fun a => ?_)
  match a with
  | ⟨0, _⟩ => rfl

/-! ## The projections -/

theorem proj_v6 (x0 : A0) (x1 x2 : A1) (b : Fin 8) (c : Fin 256) (n : Fin 2304) :
    val_main_v6 (F := Ideal) x0 x1 x2 (ix3 b c n) = X x0 b c n * vec x1 c + vec x2 c := by
  rw [val_main_v6_apply, val_main_v5_apply, val_main_v2_apply, bc_v1, bc_v4, chOf_v6]
  rfl
theorem proj_v14 (x0 : A0) (x3 x4 : A1) (b : Fin 8) (c : Fin 256) (n : Fin 2304) :
    val_main_v14 (F := Ideal) x0 x3 x4 (ix3 b c n) = X x0 b c n * vec x3 c + vec x4 c := by
  rw [val_main_v14_apply, val_main_v13_apply, val_main_v10_apply, bc_v9, bc_v12]
  rw [show idx_main_v14 (ix3 b c n) = idx_main_v6 (ix3 b c n) from rfl, chOf_v6]
  rfl
theorem proj_v22 (x0 : A0) (x5 x6 : A1) (b : Fin 8) (c : Fin 256) (n : Fin 2304) :
    val_main_v22 (F := Ideal) x0 x5 x6 (ix3 b c n) = X x0 b c n * vec x5 c + vec x6 c := by
  rw [val_main_v22_apply, val_main_v21_apply, val_main_v18_apply, bc_v17, bc_v20]
  rw [show idx_main_v22 (ix3 b c n) = idx_main_v6 (ix3 b c n) from rfl, chOf_v6]
  rfl

/-- The query projection transposed. -/
theorem theta_v15 (x0 : A0) (x3 x4 : A1) (b : Fin 8) (n : Fin 2304) (c : Fin 256) :
    val_main_v15 (F := Ideal) x0 x3 x4 (ix3 b n c) = Cert.Attn.theta (X x0 b) (vec x3) (vec x4) c n := by
  rw [val_main_v15_apply, show idx_main_v15 (ix3 b n c) = ix3 b c n from funext fun a => by
    match a with
    | ⟨0, _⟩ => rfl
    | ⟨1, _⟩ => rfl
    | ⟨2, _⟩ => rfl, proj_v14]
  rfl
/-- The value projection transposed. -/
theorem gee_v7 (x0 : A0) (x1 x2 : A1) (b : Fin 8) (m : Fin 2304) (c : Fin 256) :
    val_main_v7 (F := Ideal) x0 x1 x2 (ix3 b m c) = Cert.Attn.gee (X x0 b) (vec x1) (vec x2) c m := by
  rw [val_main_v7_apply, show idx_main_v7 (ix3 b m c) = ix3 b c m from funext fun a => by
    match a with
    | ⟨0, _⟩ => rfl
    | ⟨1, _⟩ => rfl
    | ⟨2, _⟩ => rfl, proj_v6]
  rfl

/-! ## Scores, maximum, exponentials, sum -/

theorem score_v23 (x0 : A0) (x3 x4 x5 x6 : A1) (b : Fin 8) (n m : Fin 2304) :
    val_main_v23 (F := Ideal) x0 x3 x4 x5 x6 (ix3 b n m) = Cert.Attn.scoreR (X x0 b) (vec x3) (vec x4) (vec x5) (vec x6) n m := by
  rw [val_main_v23_apply]
  unfold Cert.Attn.scoreR
  refine Finset.sum_congr rfl fun k _ => ?_
  rw [show lidx_main_v23 (ix3 b n m) k = ix3 b n k from funext fun a => by
      match a with
      | ⟨0, _⟩ => rfl
      | ⟨1, _⟩ => rfl
      | ⟨2, _⟩ => rfl,
    show ridx_main_v23 (ix3 b n m) k = ix3 b k m from funext fun a => by
      match a with
      | ⟨0, _⟩ => rfl
      | ⟨1, _⟩ => rfl
      | ⟨2, _⟩ => rfl, theta_v15, proj_v22]
  rfl

theorem hred : S8x2304x2304.Reduces [2] S8x2304 := by decide

theorem max_v24 (x0 : A0) (x3 x4 x5 x6 : A1) (b : Fin 8) (n : Fin 2304) :
    val_main_v24 (F := Ideal) x0 x3 x4 x5 x6 (ix2 b n)
      = (Finset.univ : Finset (Fin 2304)).fold max ⊥ (fun m => Cert.Attn.scoreR (X x0 b) (vec x3) (vec x4) (vec x5) (vec x6) n m) := by
  unfold val_main_v24
  rw [Host.reduce_eq_fold_single FloatOps.maximumf _ _ reducesTo_S8x2304x2304_S8x2304_d2 hred h_S_]
  show Finset.fold max (Ideal.ofBits .f32 0xFF800000#32) _ _ = _
  rw [ofBits_neg_inf]
  refine congrArg (fun f => Finset.fold max ⊥ f (Finset.univ : Finset (Fin 2304))) (funext fun m => ?_)
  show val_main_v23 (F := Ideal) x0 x3 x4 x5 x6 (hred.lift (ix2 b n) m) = _
  rw [show hred.lift (ix2 b n) m = ix3 b n (⟨m.val, m.isLt⟩ : Fin 2304) from funext fun a => Fin.ext (by
    match a with
    | ⟨0, _⟩ => rfl
    | ⟨1, _⟩ => rfl
    | ⟨2, _⟩ => rfl), score_v23]
  rfl

theorem max_v26 (x0 : A0) (x3 x4 x5 x6 : A1) (b : Fin 8) (n : Fin 2304) :
    val_main_v26 (F := Ideal) x0 x3 x4 x5 x6 (ix2 b n) = Cert.Attn.maxR (X x0 b) (vec x3) (vec x4) (vec x5) (vec x6) n := by
  rw [val_main_v26_apply, val_main_v25_apply, max_v24]
  show max (Ideal.ofBits .f32 0xFF800000#32) _ = _
  rw [ofBits_neg_inf]
  rfl

theorem exp_v30 (x0 : A0) (x3 x4 x5 x6 : A1) (b : Fin 8) (n m : Fin 2304) :
    val_main_v30 (F := Ideal) x0 x3 x4 x5 x6 (ix3 b n m) = Cert.Attn.expR (X x0 b) (vec x3) (vec x4) (vec x5) (vec x6) n m := by
  rw [val_main_v30_apply, val_main_v29_apply, val_main_v28_apply, val_main_v27_apply, score_v23,
    show idx_main_v27 (idx_main_v28 (ix3 b n m)) = ix2 b n from funext fun a => by
      match a with
      | ⟨0, _⟩ => rfl
      | ⟨1, _⟩ => rfl, max_v26]
  rfl

theorem sum_v31 (x0 : A0) (x3 x4 x5 x6 : A1) (b : Fin 8) (n : Fin 2304) :
    val_main_v31 (F := Ideal) x0 x3 x4 x5 x6 (ix2 b n) = Cert.Attn.sumR (X x0 b) (vec x3) (vec x4) (vec x5) (vec x6) n := by
  rw [val_main_v31_apply]
  unfold Cert.Attn.sumR
  show Ideal.ofBits .f32 0x00000000#32 + _ = _
  rw [Ideal.ofBits_zero_f32]
  refine congrArg (0 + ·) (Finset.sum_congr rfl fun k _ => ?_)
  rw [show idx_main_v31 (ix2 b n) k = ix3 b n k from funext fun a => by
      match a with
      | ⟨0, _⟩ => rfl
      | ⟨1, _⟩ => rfl
      | ⟨2, _⟩ => rfl, exp_v30]

theorem soft_v34 (x0 : A0) (x3 x4 x5 x6 : A1) (b : Fin 8) (n m : Fin 2304) :
    val_main_v34 (F := Ideal) x0 x3 x4 x5 x6 (ix3 b n m)
      = Ideal.div (Cert.Attn.expR (X x0 b) (vec x3) (vec x4) (vec x5) (vec x6) n m) (Cert.Attn.sumR (X x0 b) (vec x3) (vec x4) (vec x5) (vec x6) n) := by
  rw [val_main_v34_apply, val_main_v33_apply, val_main_v32_apply, exp_v30,
    show idx_main_v32 (idx_main_v33 (ix3 b n m)) = ix2 b n from funext fun a => by
      match a with
      | ⟨0, _⟩ => rfl
      | ⟨1, _⟩ => rfl, sum_v31]
  rfl

/-! ## The attended value -/

theorem attn_v36 (x0 : A0) (x1 x2 x3 x4 x5 x6 : A1) (b : Fin 8) (c : Fin 256) (n : Fin 2304) :
    val_main_v36 (F := Ideal) x0 x1 x2 x3 x4 x5 x6 (ix3 b c n)
      = Cert.Attn.attnR (X x0 b) (vec x1) (vec x2) (vec x3) (vec x4) (vec x5) (vec x6) n c := by
  rw [val_main_v36_apply, show idx_main_v36 (ix3 b c n) = ix3 b n c from funext fun a => by
    match a with
    | ⟨0, _⟩ => rfl
    | ⟨1, _⟩ => rfl
    | ⟨2, _⟩ => rfl, val_main_v35_apply]
  unfold Cert.Attn.attnR
  refine Finset.sum_congr rfl fun k _ => ?_
  rw [show lidx_main_v35 (ix3 b n c) k = ix3 b n k from funext fun a => by
      match a with
      | ⟨0, _⟩ => rfl
      | ⟨1, _⟩ => rfl
      | ⟨2, _⟩ => rfl,
    show ridx_main_v35 (ix3 b n c) k = ix3 b k c from funext fun a => by
      match a with
      | ⟨0, _⟩ => rfl
      | ⟨1, _⟩ => rfl
      | ⟨2, _⟩ => rfl, soft_v34, gee_v7]

/-! ## The two reshapes undo each other -/

/-- The batch, channel and position the final reshape reads at a [8,256,48,48] index. -/
def bOf37 (i : S8x256x48x48.Idx) : Fin 8 := ⟨((idx_main_v37 i) 0).val, ((idx_main_v37 i) 0).isLt⟩
def cOf37 (i : S8x256x48x48.Idx) : Fin 256 := ⟨((idx_main_v37 i) 1).val, ((idx_main_v37 i) 1).isLt⟩
def nOf37 (i : S8x256x48x48.Idx) : Fin 2304 := ⟨((idx_main_v37 i) 2).val, ((idx_main_v37 i) 2).isLt⟩

theorem v37_coords (i : S8x256x48x48.Idx) : idx_main_v37 i = ix3 (bOf37 i) (cOf37 i) (nOf37 i) := funext fun a => by
  match a with
  | ⟨0, _⟩ => rfl
  | ⟨1, _⟩ => rfl
  | ⟨2, _⟩ => rfl

theorem chOf_v37 (i : S8x256x48x48.Idx) : cOf37 i = chOf i := by
  apply Fin.ext
  show ((((i 0).val * 256 + (i 1).val) * 48 + (i 2).val) * 48 + (i 3).val) / 2304 % 256 = (i 1).val
  have h0 : (i 0).val < 8 := (i 0).isLt; have h1 : (i 1).val < 256 := (i 1).isLt
  have h2 : (i 2).val < 48 := (i 2).isLt; have h3 : (i 3).val < 48 := (i 3).isLt
  omega

theorem v6_v37 (i : S8x256x48x48.Idx) : idx_main_v6 (idx_main_v37 i) = i := by
  have h0 : (i 0).val < 8 := (i 0).isLt; have h1 : (i 1).val < 256 := (i 1).isLt
  have h2 : (i 2).val < 48 := (i 2).isLt; have h3 : (i 3).val < 48 := (i 3).isLt
  funext a
  apply Fin.ext
  match a with
  | ⟨0, _⟩ =>
    show (((((((i 0).val * 256 + (i 1).val) * 48 + (i 2).val) * 48 + (i 3).val) / 589824) * 256 + ((((i 0).val * 256 + (i 1).val) * 48 + (i 2).val) * 48 + (i 3).val) / 2304 % 256) * 2304 + ((((i 0).val * 256 + (i 1).val) * 48 + (i 2).val) * 48 + (i 3).val) % 2304) / 589824 = (i 0).val
    omega
  | ⟨1, _⟩ =>
    show (((((((i 0).val * 256 + (i 1).val) * 48 + (i 2).val) * 48 + (i 3).val) / 589824) * 256 + ((((i 0).val * 256 + (i 1).val) * 48 + (i 2).val) * 48 + (i 3).val) / 2304 % 256) * 2304 + ((((i 0).val * 256 + (i 1).val) * 48 + (i 2).val) * 48 + (i 3).val) % 2304) / 2304 % 256 = (i 1).val
    omega
  | ⟨2, _⟩ =>
    show (((((((i 0).val * 256 + (i 1).val) * 48 + (i 2).val) * 48 + (i 3).val) / 589824) * 256 + ((((i 0).val * 256 + (i 1).val) * 48 + (i 2).val) * 48 + (i 3).val) / 2304 % 256) * 2304 + ((((i 0).val * 256 + (i 1).val) * 48 + (i 2).val) * 48 + (i 3).val) % 2304) / 48 % 48 = (i 2).val
    omega
  | ⟨3, _⟩ =>
    show (((((((i 0).val * 256 + (i 1).val) * 48 + (i 2).val) * 48 + (i 3).val) / 589824) * 256 + ((((i 0).val * 256 + (i 1).val) * 48 + (i 2).val) * 48 + (i 3).val) / 2304 % 256) * 2304 + ((((i 0).val * 256 + (i 1).val) * 48 + (i 2).val) * 48 + (i 3).val) % 2304) % 48 = (i 3).val
    omega

/-! ## The result -/

theorem inv_v49 (x9 x12 : A1) (i : S8x256x48x48.Idx) : val_main_v49 (F := Ideal) x9 x12 i = invOf x9 x12 (chOf i) := by
  rw [val_main_v49_apply, val_main_v48_apply,
    show idx_main_v48 (idx_main_v49 i) = ix1 (chOf i) from funext fun a => by
      match a with
      | ⟨0, _⟩ => rfl,
    val_main_v47_apply, val_main_v46_apply, val_main_v45_apply, val_main_v44_apply]
  rfl

theorem shift_v54 (x9 x10 x11 x12 : A1) (i : S8x256x48x48.Idx) :
    val_main_v54 (F := Ideal) x9 x10 x11 x12 i = shiftOf x9 x10 x11 x12 (chOf i) := by
  rw [val_main_v54_apply, val_main_v53_apply,
    show idx_main_v53 (idx_main_v54 i) = ix1 (chOf i) from funext fun a => by
      match a with
      | ⟨0, _⟩ => rfl,
    val_main_v52_apply, val_main_v51_apply, val_main_v47_apply, val_main_v46_apply, val_main_v45_apply, val_main_v44_apply]
  rfl

/-- The reference's result at an index is its arrangement of the block, at the batch, channel and position the final
    reshape reads there. -/
theorem result_v56 (x0 : A0) (x1 x2 x3 x4 x5 x6 x7 x8 x9 x10 x11 x12 : A1) (i : S8x256x48x48.Idx) :
    val_main_v56 (F := Ideal) x0 x1 x2 x3 x4 x5 x6 x7 x8 x9 x10 x11 x12 i
      = Cert.Attn.outR (X x0 (bOf37 i)) (vec x1) (vec x2) (vec x3) (vec x4) (vec x5) (vec x6) (vec x7) (vec x8)
          (invOf x9 x12) (shiftOf x9 x10 x11 x12) (cOf37 i) (nOf37 i) := by
  have hx : x0 i = X x0 (bOf37 i) (cOf37 i) (nOf37 i) := by
    unfold X
    rw [← v37_coords i, v6_v37]
  rw [val_main_v56_apply, val_main_v55_apply, val_main_v50_apply, val_main_v43_apply, val_main_v40_apply, val_main_v37_apply,
    bc_v39, bc_v42, inv_v49, shift_v54, v37_coords i, attn_v36, ← chOf_v37 i, hx]
  rfl

end Cert.ReferenceIdeal.RefValue

end
-- ==== Proof.LibFiniteTest.lean ====
/-
  The test "every entry of a float array is finite", read back. A precondition writes it as `all (|a| < +∞)`: the
  absolute value `max x (−x)` of each entry compared with the pattern of +∞, the comparisons joined by `and` from 1
  into a scalar. If that scalar is 1 then every comparison is 1, and an extended real whose absolute value is below +∞
  is neither infinity: every entry of the array is a real number. Stated for an array of any shape reduced over any
  axes into the scalar shape.
-/
import Idealize.ShloMosaic.Lib.ReduceAll
import Idealize.ShloMosaic.Lib.ValueIdx
import proofs.«110668_j27084063769111_2_alg».proof.Proof.LibRealValued
import proofs.«110668_j27084063769111_2_alg».proof.Proof.LibBroadcastInDim

noncomputable section

namespace Cert.Lib.FiniteTest

open Idealize.ShloMosaic Idealize.ShloMosaic.ValueIdx Cert.Lib.RealValued

/-- The scalar shape has one index. -/
instance scalarIdx_subsingleton : Subsingleton (⟨0, ![]⟩ : Shape).Idx := ⟨fun a b => funext fun d => d.elim0⟩

/-- The f32 pattern `0x7F800000` denotes +∞. -/
theorem ofBits_inf : Ideal.ofBits .f32 0x7F800000#32 = ⊤ := by
  simp [Ideal.ofBits, Ideal.ieee]

/-- One entry's test: `|x| < +∞` comes out 1 only at a real `x`. -/
theorem real_of_test (x : EReal) (h : Ideal.cmp .olt (max x (-x)) (Ideal.ofBits .f32 0x7F800000#32) = 1#1) : IsReal x := by
  rw [ofBits_inf] at h
  by_cases hlt : max x (-x) < ⊤
  · exact isReal_of_abs_lt_top hlt
  · exfalso
    unfold Ideal.cmp at h
    simp [hlt] at h

/-- One array's `all (|a| < +∞)`: if it comes out 1, every entry of the array is real. -/
theorem all_real {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf .olt (Host.absf a) (broadcastInDim s ![] hb (constant (F := Ideal) ⟨0, ![]⟩ .f32 0x7F800000#32)))
        (constantI ⟨0, ![]⟩ 1 1#1) hr hu ix0 = 1#1) (i : s.Idx) : IsReal (a i) := by
  have e := Host.reduce_andi_all _ _ hr hu ix0 h i
  refine real_of_test (a i) ?_
  rw [← e]
  show _ = FloatOps.cmpf .olt (FloatOps.hostAbsf (a i)) (broadcastInDim s ![] hb (constant (F := Ideal) ⟨0, ![]⟩ .f32 0x7F800000#32) i)
  rw [Cert.Lib.BroadcastInDim.splat_apply]
  rfl

end Cert.Lib.FiniteTest

end
-- ==== Proof.PreDecode.lean ====
/-
  The precondition, read back.

  The precondition is the conjunction of fourteen tests, each an `all` over one array: thirteen say every entry of an
  argument array is finite, the fourteenth that every entry of the variance array is at least zero. If the whole
  comes out 1 then each test does, so every entry of every argument is a real number and the variance's entries are
  nonnegative.
-/
import proofs.«110668_j27084063769111_2_alg».proof.Pre_finite_inputs
import proofs.«110668_j27084063769111_2_alg».proof.Proof.Gen.Pre_finite_inputs
import proofs.«110668_j27084063769111_2_alg».proof.Proof.LibFiniteTest
import Idealize.ShloMosaic.Lib.Affine
import Idealize.ShloMosaic.Lib.ReduceAll
import Idealize.ShloMosaic.PureOps.Ideal.Laws

set_option maxRecDepth 16384

noncomputable section

namespace Cert.Pre_finite_inputs.Decode

open Idealize.ShloMosaic Idealize.ShloMosaic.ValueIdx Cert.Lib.RealValued Cert.Lib.FiniteTest
open Cert.Pre_finite_inputs Cert.Pre_finite_inputs.Facts

/-- One entry's test `x ≥ 0` comes out 1 only at a nonnegative `x`. -/
theorem nonneg_of_test (x : EReal) (h : Ideal.cmp .oge x (Ideal.ofBits .f32 0x00000000#32) = 1#1) : 0 ≤ x := by
  rw [Ideal.ofBits_zero_f32] at h
  by_contra hn
  unfold Ideal.cmp at h
  simp [hn] at h

/-- The variance array's `all (a ≥ 0)`: if it comes out 1, every entry is nonnegative. -/
theorem all_nonneg (a : FVec Ideal S256 .f32)
    (h : Host.reduce IntOp.andi (cmpf .oge a (broadcastInDim S256 ![] bcast_S_S256 (constant (F := Ideal) S_ .f32 0x00000000#32)))
        (constantI S_ 1 1#1) reducesTo_S256_S_d0 h_S_ ix0 = 1#1) (i : S256.Idx) : 0 ≤ a i := by
  have e := Host.reduce_andi_all _ _ reducesTo_S256_S_d0 h_S_ ix0 h i
  refine nonneg_of_test (a i) ?_
  rw [← e]
  show _ = FloatOps.cmpf .oge (a i) (broadcastInDim S256 ![] bcast_S_S256 (constant (F := Ideal) S_ .f32 0x00000000#32) i)
  rw [Cert.Lib.BroadcastInDim.splat_apply]
  rfl

/-- The precondition at the ideal instance: every entry of every argument is real, and the variance is nonnegative. -/
theorem decode (a0 : FVec Ideal S8x256x48x48 .f32) (a1 a2 a3 a4 a5 a6 a7 a8 a9 a10 a11 a12 : FVec Ideal S256 .f32)
    (h : fn (F := Ideal) a0 a1 a2 a3 a4 a5 a6 a7 a8 a9 a10 a11 a12 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, 0 ≤ a12 i) := by
  have h0 := congrFun h ix0
  unfold fn fn_part1 fn_part2 fn_part3 at h0
  dsimp only at h0
  obtain ⟨g12, hge⟩ := IntOp.andi_eq_one.mp h0
  obtain ⟨g11, t12⟩ := IntOp.andi_eq_one.mp g12
  obtain ⟨g10, t11⟩ := IntOp.andi_eq_one.mp g11
  obtain ⟨g9, t10⟩ := IntOp.andi_eq_one.mp g10
  obtain ⟨g8, t9⟩ := IntOp.andi_eq_one.mp g9
  obtain ⟨g7, t8⟩ := IntOp.andi_eq_one.mp g8
  obtain ⟨g6, t7⟩ := IntOp.andi_eq_one.mp g7
  obtain ⟨g5, t6⟩ := IntOp.andi_eq_one.mp g6
  obtain ⟨g4, t5⟩ := IntOp.andi_eq_one.mp g5
  obtain ⟨g3, t4⟩ := IntOp.andi_eq_one.mp g4
  obtain ⟨g2, t3⟩ := IntOp.andi_eq_one.mp g3
  obtain ⟨g1, t2⟩ := IntOp.andi_eq_one.mp g2
  obtain ⟨g0, t1⟩ := IntOp.andi_eq_one.mp g1
  exact ⟨all_real a0 bcast_S_S8x256x48x48 reducesTo_S8x256x48x48_S_d0_1_2_3 h_S_ g0,
    all_real a1 bcast_S_S256 reducesTo_S256_S_d0 h_S_ t1,
    all_real a2 bcast_S_S256 reducesTo_S256_S_d0 h_S_ t2,
    all_real a3 bcast_S_S256 reducesTo_S256_S_d0 h_S_ t3,
    all_real a4 bcast_S_S256 reducesTo_S256_S_d0 h_S_ t4,
    all_real a5 bcast_S_S256 reducesTo_S256_S_d0 h_S_ t5,
    all_real a6 bcast_S_S256 reducesTo_S256_S_d0 h_S_ t6,
    all_real a7 bcast_S_S256 reducesTo_S256_S_d0 h_S_ t7,
    all_real a8 bcast_S_S256 reducesTo_S256_S_d0 h_S_ t8,
    all_real a9 bcast_S_S256 reducesTo_S256_S_d0 h_S_ t9,
    all_real a10 bcast_S_S256 reducesTo_S256_S_d0 h_S_ t10,
    all_real a11 bcast_S_S256 reducesTo_S256_S_d0 h_S_ t11,
    all_real a12 bcast_S_S256 reducesTo_S256_S_d0 h_S_ t12,
    all_nonneg a12 hge⟩

end Cert.Pre_finite_inputs.Decode

end
-- ==== Proof.ValueBridge.lean ====
/-
  The kernel's result is the reference's, element by element.

  At a result index the final reshape of either program reads batch `b`, channel `c` and position `n` of a
  [8,256,2304] array. There the kernel's array holds the kernel's arrangement of batch `b`'s block, over the reshaped
  input and the packed columns; the packed columns are the argument vectors, with the output weight and offset folded
  against the batch normalisation's scale. The reference's run holds its own arrangement over the same data. Under the
  precondition every entry is real and the variance is nonnegative, so the scale `gamma · rsqrt(var + eps)` is real
  (eps is a positive real), and the two arrangements agree.
-/
import proofs.«110668_j27084063769111_2_alg».proof.Proof.KernelIdealPacked
import proofs.«110668_j27084063769111_2_alg».proof.Proof.ReferenceValue
import proofs.«110668_j27084063769111_2_alg».proof.Proof.PreDecode

set_option maxRecDepth 16384

noncomputable section

namespace Cert.Proof.Bridge

open Idealize.ShloMosaic Idealize.ShloMosaic.TcCoe Idealize.ShloMosaic.ValueIdx
open Idealize.SL Idealize.SL.Sem
open Cert.Lib.RealValued Cert.Attn.Consts
open Cert.ReferenceIdeal.RefValue Cert.ReferenceIdeal.Read

/-! ## The scale is real -/

theorem isReal_invOf (a9 a12 : A1) (h9 : ∀ i, IsReal (a9 i)) (h12 : ∀ i, IsReal (a12 i)) (hge : ∀ i, 0 ≤ a12 i) (ch : Fin 256) :
    IsReal (invOf a9 a12 ch) := by
  unfold invOf
  obtain ⟨e, he, heq⟩ := eps_pos
  obtain ⟨r, hr⟩ := h12 (ix1 ch)
  have hr0 : 0 ≤ r := by have h := hge (ix1 ch); rw [hr] at h; exact EReal.coe_nonneg.mp h
  rw [hr, heq, ← EReal.coe_add, Ideal.rsqrt_coe, if_neg (by linarith), if_neg (by linarith)]
  exact (h9 _).mul (isReal_coe _)

theorem isReal_shiftOf (a9 a10 a11 a12 : A1) (h9 : ∀ i, IsReal (a9 i)) (h10 : ∀ i, IsReal (a10 i)) (h11 : ∀ i, IsReal (a11 i))
    (h12 : ∀ i, IsReal (a12 i)) (hge : ∀ i, 0 ≤ a12 i) (ch : Fin 256) : IsReal (shiftOf a9 a10 a11 a12 ch) := by
  unfold shiftOf
  exact (h10 _).sub ((h11 _).mul (isReal_invOf a9 a12 h9 h12 hge ch))

/-! ## The kernel's array over the arguments -/

/-- The reshaped input at (b, ch, n) is the argument at the position the reference's reshape reads. -/
theorem reshaped_apply (a0 : A0) (h : Cert.KernelIdeal.S8x256x48x48.ShapeCasts Cert.KernelIdeal.S8x256x2304) (b : Fin 8) (ch : Fin 256) (n : Fin 2304) :
    shapeCast Cert.KernelIdeal.S8x256x2304 a0 h (ix3 b ch n) = X a0 b ch n := by
  unfold X
  refine shapeCast_apply a0 h (ix3 b ch n) (idx_main_v6 (ix3 b ch n)) ?_
  rewrite [Shape.rowMajor_val_four, Shape.rowMajor_val_three]
  have h0 : b.val < 8 := b.isLt; have h1 : ch.val < 256 := ch.isLt; have h2 : n.val < 2304 := n.isLt
  show ((((b.val * 256 + ch.val) * 2304 + n.val) / 589824 * 256 + ((b.val * 256 + ch.val) * 2304 + n.val) / 2304 % 256) * 48 + ((b.val * 256 + ch.val) * 2304 + n.val) / 48 % 48) * 48 + ((b.val * 256 + ch.val) * 2304 + n.val) % 48 = (b.val * 256 + ch.val) * 2304 + n.val
  omega

/-- The final reshape of a [8,256,2304] array reads at the reference's reshape index. -/
theorem unreshaped_apply (G : Cert.KernelIdeal.S8x256x2304.Idx → EReal) (h : Cert.KernelIdeal.S8x256x2304.ShapeCasts Cert.KernelIdeal.S8x256x48x48) (i : Cert.ReferenceIdeal.S8x256x48x48.Idx) :
    shapeCast Cert.KernelIdeal.S8x256x48x48 G h i = G (ix3 (bOf37 i) (cOf37 i) (nOf37 i)) := by
  rw [← v37_coords i]
  refine shapeCast_apply G h i (idx_main_v37 i) ?_
  rewrite [Shape.rowMajor_val_three, Shape.rowMajor_val_four]
  have h0 : (i 0).val < 8 := (i 0).isLt; have h1 : (i 1).val < 256 := (i 1).isLt; have h2 : (i 2).val < 48 := (i 2).isLt; have h3 : (i 3).val < 48 := (i 3).isLt
  show (((((i 0).val * 256 + (i 1).val) * 48 + (i 2).val) * 48 + (i 3).val) / 589824 * 256 + ((((i 0).val * 256 + (i 1).val) * 48 + (i 2).val) * 48 + (i 3).val) / 2304 % 256) * 2304 + ((((i 0).val * 256 + (i 1).val) * 48 + (i 2).val) * 48 + (i 3).val) % 2304 = (((i 0).val * 256 + (i 1).val) * 48 + (i 2).val) * 48 + (i 3).val
  omega

open Cert.KernelIdeal Cert.KernelIdeal.Gen Cert.KernelIdeal.Hand in
/-- The columns of the packed array are the argument vectors, the last two folded against the scale. -/
theorem pvec_cols (a1 a2 a3 a4 a5 a6 a7 a8 a9 a10 a11 a12 : A1) :
    (fun ch => pvec a1 a2 a3 a4 a5 a6 a7 a8 a9 a10 a11 a12 ⟨0, by decide⟩ (ix1 ch)) = vec a1 ∧ (fun ch => pvec a1 a2 a3 a4 a5 a6 a7 a8 a9 a10 a11 a12 ⟨1, by decide⟩ (ix1 ch)) = vec a2
    ∧ (fun ch => pvec a1 a2 a3 a4 a5 a6 a7 a8 a9 a10 a11 a12 ⟨2, by decide⟩ (ix1 ch)) = vec a3 ∧ (fun ch => pvec a1 a2 a3 a4 a5 a6 a7 a8 a9 a10 a11 a12 ⟨3, by decide⟩ (ix1 ch)) = vec a4
    ∧ (fun ch => pvec a1 a2 a3 a4 a5 a6 a7 a8 a9 a10 a11 a12 ⟨4, by decide⟩ (ix1 ch)) = vec a5 ∧ (fun ch => pvec a1 a2 a3 a4 a5 a6 a7 a8 a9 a10 a11 a12 ⟨5, by decide⟩ (ix1 ch)) = vec a6
    ∧ (fun ch => pvec a1 a2 a3 a4 a5 a6 a7 a8 a9 a10 a11 a12 ⟨6, by decide⟩ (ix1 ch)) = (fun ch => vec a7 ch * invOf a9 a12 ch)
    ∧ (fun ch => pvec a1 a2 a3 a4 a5 a6 a7 a8 a9 a10 a11 a12 ⟨7, by decide⟩ (ix1 ch)) = (fun ch => vec a8 ch * invOf a9 a12 ch + shiftOf a9 a10 a11 a12 ch) := by
  have hinv : ∀ ch : Fin 256, hInv a9 a12 (ix1 ch) = invOf a9 a12 ch := fun ch => by
    unfold hInv invOf
    show a9 (ix1 ch) * Ideal.rsqrt (a12 (ix1 ch) + broadcastInDim Cert.KernelIdeal.S256 ![] _ (constant (F := Ideal) Cert.KernelIdeal.S_ .f32 0x3727C5AC#32) (ix1 ch)) = _
    rw [Cert.Lib.BroadcastInDim.splat_apply]
    rfl
  refine ⟨rfl, rfl, rfl, rfl, rfl, rfl, funext fun ch => ?_, funext fun ch => ?_⟩
  · show a7 (ix1 ch) * hInv a9 a12 (ix1 ch) = _
    rw [hinv]; rfl
  · show a8 (ix1 ch) * hInv a9 a12 (ix1 ch) + (a10 (ix1 ch) - a11 (ix1 ch) * hInv a9 a12 (ix1 ch)) = _
    rw [hinv]; rfl

/-! ## The two results agree -/

section
open Cert.KernelIdeal Cert.KernelIdeal.Gen Cert.KernelIdeal.Hand

variable (m : (ℓ : Loc Cert.KernelIdeal.nD Cert.KernelIdeal.τ Cert.KernelIdeal.sig) → Buf (Elt Ideal) ℓ)

/-- The kernel's result at an index is the reference's value there, under the precondition. -/
theorem result_eq (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) = fun _ => 1#1) :
    shapeCast Cert.KernelIdeal.S8x256x48x48 (G19 m c) shapeCasts_S8x256x2304_S8x256x48x48
      = val_main_v56 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  obtain ⟨r0, r1, r2, r3, r4, r5, r6, r7, r8, r9, r10, r11, r12, hge⟩ := Cert.Pre_finite_inputs.Decode.decode _ _ _ _ _ _ _ _ _ _ _ _ _ hpre
  funext i
  rw [unreshaped_apply, result_v56]
  unfold G19
  obtain ⟨p0, p1, p2, p3, p4, p5, p6, p7⟩ := pvec_cols (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
  have hX : (fun ch n => V m c main_v0 (ix3 (c0 (ix3 (bOf37 i) (cOf37 i) (nOf37 i))) ch n))
      = X (m ((c.tc : Thread Cert.KernelIdeal.nD Cert.KernelIdeal.τ).loc Cert.KernelIdeal.main_arg0)) (bOf37 i) := funext fun ch => funext fun n => by
    rw [V_main_v0]; exact reshaped_apply _ _ _ _ _
  have hcol : ∀ (k : ℕ) (hk : k < 8), colOf (V m c main_v18) k hk
      = fun ch => pvec (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) ⟨k, hk⟩ (ix1 ch) := fun k hk => funext fun ch => by
    unfold colOf; rw [V_main_v18, packed_apply]
  rw [hX, hcol 0, hcol 1, hcol 2, hcol 3, hcol 4, hcol 5, hcol 6, hcol 7, p0, p1, p2, p3, p4, p5, p6, p7]
  exact Cert.Attn.outK_eq_outR _ _ _ _ _ _ _ _ _ _ _ (fun ch n => r0 _) (fun ch => r1 _) (fun ch => r2 _) (fun ch => r3 _) (fun ch => r4 _)
    (fun ch => r5 _) (fun ch => r6 _) (fun ch => r7 _) (fun ch => r8 _) (fun ch => isReal_invOf _ _ r9 r12 hge ch)
    (fun ch => isReal_shiftOf _ _ _ _ r9 r10 r11 r12 hge ch) _ _

end

end Cert.Proof.Bridge

end
-- ==== Proof.lean ====
/-
  A non-local attention block (per-channel query, key and value projections, softmax attention over the 2304
  positions of each batch, an output projection, a batch normalisation and a residual) as one tiled kernel, against
  its plain reference.

  The kernel runs over a grid of 8 batches by 6 query tiles. At the first tile of a batch it stores the three
  projections of the batch's input in scratch buffers and reuses them at the other five; every tile computes the
  scores of all key positions against its 384 queries, the exponentials less the column maxima, the value projection
  times the exponentials, and scales each column by the reciprocal of its sum afterwards; the batch normalisation's
  scale is folded into the output projection on the host beforehand. The reference normalises the weights before the
  second product and applies the two affine maps one after the other.

  The frames: each program runs to the end and leaves its arguments unchanged — for the kernel at either instance by
  following the scratch buffers' contents from point to point of the grid, for the reference by its straight run.
  Nothing was rewritten between the word-level and the idealized kernel. The values: under the precondition (every
  input entry finite, the variance nonnegative) every intermediate is a real number, the scale
  gamma · rsqrt(var + eps) included, so moving the reciprocal across the sum and collecting the affine maps are
  laws of the reals, and the two results agree element by element.
-/
import proofs.«110668_j27084063769111_2_alg».proof.Defs
import proofs.«110668_j27084063769111_2_alg».proof.Proof.Gen.Kernel
import proofs.«110668_j27084063769111_2_alg».proof.Proof.Gen.KernelIdeal
import proofs.«110668_j27084063769111_2_alg».proof.Proof.Gen.ReferenceIdeal
import proofs.«110668_j27084063769111_2_alg».proof.Proof.Gen.Pre_finite_inputs
import proofs.«110668_j27084063769111_2_alg».proof.Proof.Gen.ReferenceIdeal.Run
import proofs.«110668_j27084063769111_2_alg».proof.Proof.KernelRun
import proofs.«110668_j27084063769111_2_alg».proof.Proof.ValueBridge

set_option maxRecDepth 16384

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section
open Cert.KernelIdeal Cert.KernelIdeal.Gen Cert.KernelIdeal.Hand

/-- The idealized kernel's run with its result named: the result array reshaped, the arguments unchanged. -/
theorem value_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v20) = shapeCast S8x256x48x48 (G19 m c) shapeCasts_S8x256x2304_S8x256x48x48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_v20 (Pipeline.mem_restRefs_of main_v20 (by decide) (by decide))).trans (result_tail m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c)⟩)
    (run_main (F := Ideal) m ρ)

end

theorem algebraic : Cert.algebraic_KernelIdeal_ReferenceIdeal := by
  intro m ρ m' ρ' hpre hagree
  refine ⟨fun c => shapeCast Cert.KernelIdeal.S8x256x48x48 (Cert.KernelIdeal.Hand.G19 m c) Cert.KernelIdeal.Facts₀.shapeCasts_S8x256x2304_S8x256x48x48,
    value_run m ρ, ?_⟩
  refine (θ_run Cert.ReferenceIdeal.defs _ _).mono (fun _ h c => ⟨?_, (h c).2⟩) (Cert.ReferenceIdeal.Value.run (F := Ideal) m' ρ')
  obtain ⟨e0, e1, e2, e3, e4, e5, e6, e7, e8, e9, e10, e11, e12⟩ := hagree c
  rw [(h c).1, Cert.ReferenceIdeal.Read.val_main_v56_eq, e0, e1, e2, e3, e4, e5, e6, e7, e8, e9, e10, e11, e12]
  exact (Cert.Proof.Bridge.result_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
